-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : IVec S8x2048x1024 32) (main_arg1 : FVec F S1024x1024 .f32) (main_arg2 : FVec F S1024 .f32) (main_arg3 : FVec F S512x1024 .f32) (main_arg4 : FVec F S512 .f32) : IVec S_ 1 :=
  let main_v0 : FVec F S1024x1024 .f32 := Host.absf main_arg1
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S8x1x1024 : Shape := ⟨3, ![8, 1, 1024]⟩
abbrev S8x1024 : Shape := ⟨2, ![8, 1024]⟩
abbrev S1x1024 : Shape := ⟨2, ![1, 1024]⟩
abbrev S1x512 : Shape := ⟨2, ![1, 512]⟩
abbrev S8x1x512 : Shape := ⟨3, ![8, 1, 512]⟩
abbrev S1x512x1024 : Shape := ⟨3, ![1, 512, 1024]⟩
abbrev S1x1x1024 : Shape := ⟨3, ![1, 1, 1024]⟩
abbrev S1x1x512 : Shape := ⟨3, ![1, 1, 512]⟩
abbrev S1x1 : Shape := ⟨2, ![1, 1]⟩
abbrev S1 : Shape := ⟨1, ![1]⟩
abbrev S8x512 : Shape := ⟨2, ![8, 512]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .i32⟩
  | .hbm, ⟨1, _⟩ => ⟨S1024x1024, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S8x1x1024, .i32⟩
  | .hbm, ⟨6, _⟩ => ⟨S8x1024, .i32⟩
  | .hbm, ⟨7, _⟩ => ⟨S8x1024, .f32⟩
  | .hbm, ⟨8, _⟩ => ⟨S8x1x1024, .f32⟩
  | .hbm, ⟨9, _⟩ => ⟨S1x1024, .f32⟩
  | .hbm, ⟨10, _⟩ => ⟨S1x512, .f32⟩
  | .hbm, ⟨11, _⟩ => ⟨S8x1x512, .f32⟩
  | .hbm, ⟨12, _⟩ => ⟨S8x512, .f32⟩
  | .local _ .vmem, ⟨0, _⟩ => ⟨S1x512x1024, .i32⟩
  | .local _ .vmem, ⟨1, _⟩ => ⟨S1x512x1024, .i32⟩
  | .local _ .vmem, ⟨2, _⟩ => ⟨S1x1x1024, .f32⟩
  | .local _ .vmem, ⟨3, _⟩ => ⟨S1x1x1024, .f32⟩
  | .local _ .vmem, ⟨4, _⟩ => ⟨S1024x1024, .f32⟩
  | .local _ .vmem, ⟨5, _⟩ => ⟨S1x1024, .f32⟩
  | .local _ .vmem, ⟨6, _⟩ => ⟨S512x1024, .f32⟩
  | .local _ .vmem, ⟨7, _⟩ => ⟨S1x512, .f32⟩
  | .local _ .vmem, ⟨8, _⟩ => ⟨S1x1x512, .f32⟩
  | .local _ .vmem, ⟨9, _⟩ => ⟨S1x1x512, .f32⟩
  | .local _ .vmem, ⟨10, _⟩ => ⟨S1x1024, .bf16⟩
  | .local _ .vmem, ⟨11, _⟩ => ⟨S1x1, .f32⟩
  | .local _ .vmem, ⟨12, _⟩ => ⟨S1x1, .f32⟩
  | .local _ .vmem, ⟨13, _⟩ => ⟨S1x1024, .f32⟩
  | _, _ => ⟨S8x2048x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_20 : BitVec 32 := 0#32
  let v39 : BitVec 1 := Scalar.cmpi .ne v38 c0_i32_20
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S8x2048x1024_S8x1x1024_0_2047_0 : S8x2048x1024.Slices ![0, 2047, 0] S8x1x1024
  shapeCasts_S8x1x1024_S8x1024 : S8x1x1024.ShapeCasts S8x1024
  bcast_S8x1024_S8x1x1024_0_2 : S8x1024.BroadcastsInDim S8x1x1024 (![0, 2] : Fin 2 → Fin S8x1x1024.rank)
  shapeCasts_S1024_S1x1024 : S1024.ShapeCasts S1x1024
  shapeCasts_S512_S1x512 : S512.ShapeCasts S1x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  packedbf16_S1x1024_S1x1024_0_0 : (Rect.unit (s := S1x1024) ![0, 0] S1x1024.size inb_S1x1024_S1x1024_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S1x512_S1 : S1x512.Reduces [1] S1
  shapeCasts_S1_S1x1 : S1.ShapeCasts S1x1
  broadcasts_S1x1_S1x512 : S1x1.Broadcasts S1x512
  broadcasts_S1x1_S1x1024 : S1x1.Broadcasts S1x1024
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S8x1x512_S8x512 : S8x1x512.ShapeCasts S8x512
  dot_S1x1024_S1024x1024_S1x1024_1_1_0_0_n_n_wf : DotDims.WF S1x1024 S1024x1024 S1x1024 [1] [1] [0] [0] [] []
  dot_S1x1024_S512x1024_S1x512_1_1_0_0_n_n_wf : DotDims.WF S1x1024 S512x1024 S1x512 [1] [1] [0] [0] [] []
  dot_S1x512_S512x1024_S1x1024_1_0_0_1_n_n_wf : DotDims.WF S1x512 S512x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .i32 = 32 ∨ (Rect.block (s := S8x2048x1024) S1x512x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S8x1x1024.size a
  hwx0_1 : ∀ i : grid0.Coords, EltTy.bits .f32 = 32 ∨ (Rect.block (s := S8x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S8x1x512.size a
  hwx0_6 : ∀ i : grid0.Coords, EltTy.bits .f32 = 32 ∨ (Rect.block (s := S8x1x512) S1x1x512.size (cc0_transform_6 i) (hinb0_6 i)).WholeWords (EltTy.packing .f32)

variable [Facts₀]

def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S512x1024_S1x512_1_1_0_0_n_n : DotDims S1x1024 S512x1024 S1x512 where
  lhsContracting := [1]
  rhsContracting := [1]
  lhsNonContracting := [0]
  rhsNonContracting := [0]
  lhsBatch := []
  rhsBatch := []
  wf := dot_S1x1024_S512x1024_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x2048x512 : Shape := ⟨3, ![8, 2048, 512]⟩
abbrev S1x1x512 : Shape := ⟨3, ![1, 1, 512]⟩
abbrev S8x1x512 : Shape := ⟨3, ![8, 1, 512]⟩
abbrev S8x512 : Shape := ⟨2, ![8, 512]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .i32⟩
  | .hbm, ⟨1, _⟩ => ⟨S1024x1024, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S8x2048x1024, .f32⟩
  | .hbm, ⟨6, _⟩ => ⟨S8x2048x1024, .f32⟩
  | .hbm, ⟨7, _⟩ => ⟨S1x1x1024, .f32⟩
  | .hbm, ⟨8, _⟩ => ⟨S8x2048x1024, .f32⟩
  | .hbm, ⟨9, _⟩ => ⟨S8x2048x1024, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x1024, .f32⟩
  | .hbm, ⟨26, _⟩ => ⟨S8x2048x512, .f32⟩
  | .hbm, ⟨27, _⟩ => ⟨S1x1x512, .f32⟩
  | .hbm, ⟨28, _⟩ => ⟨S8x2048x512, .f32⟩
  | .hbm, ⟨29, _⟩ => ⟨S8x2048x512, .f32⟩
  | .hbm, ⟨30, _⟩ => ⟨S8x1x512, .f32⟩
  | .hbm, ⟨31, _⟩ => ⟨S8x512, .f32⟩
  | _, _ => ⟨S8x2048x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  slices_S8x2048x512_S8x1x512_0_2047_0 : S8x2048x512.Slices ![0, 2047, 0] S8x1x512
  shapeCasts_S8x1x512_S8x512 : S8x1x512.ShapeCasts S8x512
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x1024_S512x1024_S8x2048x512_2_1_01_0_n_n_wf : DotDims.WF S8x2048x1024 S512x1024 S8x2048x512 [2] [1] [0, 1] [0] [] []

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x1024_S512x1024_S8x2048x512_2_1_01_0_n_n : DotDims S8x2048x1024 S512x1024 S8x2048x512 where
  lhsContracting := [2]
  rhsContracting := [1]
  lhsNonContracting := [0, 1]
  rhsNonContracting := [0]
  lhsBatch := []
  rhsBatch := []
  wf := dot_S8x2048x1024_S512x1024_S8x2048x512_2_1_01_0_n_n_wf

class Facts : Prop extends Facts₀ where

variable [Facts]
-- ==== Proof.Spec.lean ====
/-
  The quantity both programs compute, written once over the argument arrays.

  Tokens are integers; `x b m e` is token `(b, m, e)` as a real number. For one batch element `b` only the last
  position's query is ever used: `q b f = Σ_e x b 2047 e · Wa_w f e + Wa_b f`, its scores against every position
  `s b m = Σ_f q b f · x b m f`, the softmax weights of those 2048 scores, the weighted row
  `a e = Σ_m w m · x b m e`, and the output `Σ_e a e · Wb_w v e + Wb_b v`.

  The softmax is written with an explicit shift `M`: `w m = exp (s m − M) / (0 + Σ_m' exp (s m' − M))`. For real
  scores the weights do not depend on the shift, which is what lets a running maximum replace the global one.
-/
import Mathlib
import Idealize.ShloMosaic.PureOps.Ideal
import Idealize.ShloMosaic.Lib.ValueIdx

noncomputable section

namespace Cert.Spec

open Idealize.ShloMosaic Idealize.ShloMosaic.ValueIdx

variable (tok : (⟨3, ![8, 2048, 1024]⟩ : Shape).Idx → BitVec 32)
  (waw : (⟨2, ![1024, 1024]⟩ : Shape).Idx → EReal) (wab : (⟨1, ![1024]⟩ : Shape).Idx → EReal)
  (wbw : (⟨2, ![512, 1024]⟩ : Shape).Idx → EReal) (wbb : (⟨1, ![512]⟩ : Shape).Idx → EReal)

/-- Token `(b, m, e)` as an extended real: the integer itself. -/
def x (b : Fin 8) (m : Fin 2048) (e : Fin 1024) : EReal := (((tok (ix3 b m e)).toInt : ℝ) : EReal)

/-- The query of the last position of batch element `b`. -/
def q (b : Fin 8) (f : Fin 1024) : EReal :=
  (∑ e : Fin 1024, x tok b (2047 : Fin 2048) e * waw (ix2 f e)) + wab (ix1 f)

/-- The score of the last position's query against position `m`. -/
def s (b : Fin 8) (m : Fin 2048) : EReal := ∑ f : Fin 1024, q tok waw wab b f * x tok b m f

/-- The bit pattern of −∞ in binary32, as the extended real it denotes. -/
def negInf : EReal := Ideal.ofBits .f32 0xFF800000#32

/-- The shift the reference uses: the maximum of the scores, folded from −∞ and once more compared with −∞. -/
def refShift (b : Fin 8) : EReal :=
  max negInf ((Finset.univ : Finset (Fin 2048)).fold max negInf (s tok waw wab b))

/-- The softmax-weighted row for a given shift `M`. -/
def attn (b : Fin 8) (M : EReal) (e : Fin 1024) : EReal :=
  ∑ m : Fin 2048, Ideal.div (Ideal.exp (s tok waw wab b m - M))
      (Ideal.ofBits .f32 0x00000000#32 + ∑ m' : Fin 2048, Ideal.exp (s tok waw wab b m' - M)) * x tok b m e

/-- The output projection of a row `a`. -/
def proj (a : Fin 1024 → EReal) (v : Fin 512) : EReal :=
  (∑ e : Fin 1024, a e * wbw (ix2 v e)) + wbb (ix1 v)

/-- The reference's result at `(b, v)`. -/
def refOut (b : Fin 8) (v : Fin 512) : EReal :=
  proj wbw wbb (attn tok waw wab b (refShift tok waw wab b)) v

end Cert.Spec

end
-- ==== Proof.RefSide.lean ====
/-
  The reference program read element by element.

  Only position 2047 of each batch element reaches the result: the slice keeps that position, and every stage between
  the query and the output acts on each position separately. So each stage is read at the index (b, 2047, ·) and
  identified with the corresponding quantity of the specification: the query, the scores, the shift (the maximum of
  the scores folded from −∞, compared once more with −∞), the exponentials, their sum from 0, the quotients, the
  weighted row and the projection.
-/
import proofs.«167905_j9560597200957_2_alg».proof.Proof.Gen.ReferenceIdeal.Read
import proofs.«167905_j9560597200957_2_alg».proof.Proof.Spec
import Idealize.ShloMosaic.PureOps.Ideal.Laws
import Idealize.ShloMosaic.Lib.ValueIdx
import Idealize.ShloMosaic.Lib.Pipeline.Value

noncomputable section

namespace Cert.RefSide

open Cert.ReferenceIdeal Cert.ReferenceIdeal.Gen Cert.ReferenceIdeal.Read Idealize.ShloMosaic
  Idealize.ShloMosaic.ValueIdx

variable (x0 : (⟨S8x2048x1024, .i32⟩ : BufTy).Contents (Elt Ideal))
  (x1 : (⟨S1024x1024, .f32⟩ : BufTy).Contents (Elt Ideal)) (x2 : (⟨S1024, .f32⟩ : BufTy).Contents (Elt Ideal))
  (x3 : (⟨S512x1024, .f32⟩ : BufTy).Contents (Elt Ideal)) (x4 : (⟨S512, .f32⟩ : BufTy).Contents (Elt Ideal))

/-- The last position. -/
abbrev last : Fin 2048 := 2047

/-- The converted token at (b, m, e) is the integer itself. -/
theorem v0_at (b : Fin 8) (m : Fin 2048) (e : Fin 1024) :
    val_main_v0 (F := Ideal) x0 (ix3 b m e) = Cert.Spec.x x0 b m e := rfl

/-- The first product at (b, m, f): the tokens of position m against row f of the first weight. -/
theorem v1_at (b : Fin 8) (m : Fin 2048) (f : Fin 1024) :
    val_main_v1 (F := Ideal) x0 x1 (ix3 b m f) = ∑ e : Fin 1024, Cert.Spec.x x0 b m e * x1 (ix2 f e) := by
  rw [val_main_v1_apply]
  refine Finset.sum_congr rfl fun k _ => ?_
  have el : lidx_main_v1 (ix3 b m f) k = ix3 b m k :=
    funext fun a => Fin.ext (by match a with | ⟨0, _⟩ => rfl | ⟨1, _⟩ => rfl | ⟨2, _⟩ => rfl)
  have er : ridx_main_v1 (ix3 b m f) k = ix2 f k :=
    funext fun a => Fin.ext (by match a with | ⟨0, _⟩ => rfl | ⟨1, _⟩ => rfl)
  rw [el, er, v0_at]

/-- The broadcast bias at (b, m, f) is entry f of the bias. -/
theorem v3_at (b : Fin 8) (m : Fin 2048) (f : Fin 1024) :
    val_main_v3 (F := Ideal) x2 (ix3 b m f) = x2 (ix1 f) := by
  rw [val_main_v3_apply, val_main_v2_apply]
  exact congrArg x2 (funext fun a => Fin.ext (by match a with | ⟨0, _⟩ => rfl))

/-- The query of the last position. -/
theorem v4_at (b : Fin 8) (f : Fin 1024) :
    val_main_v4 (F := Ideal) x0 x1 x2 (ix3 b last f) = Cert.Spec.q x0 x1 x2 b f := by
  rw [val_main_v4_apply, v1_at, v3_at]
  rfl

/-- The score of the last position's query against position m. -/
theorem v5_at (b : Fin 8) (m : Fin 2048) :
    val_main_v5 (F := Ideal) x0 x1 x2 (ix3 b last m) = Cert.Spec.s x0 x1 x2 b m := by
  rw [val_main_v5_apply]
  refine Finset.sum_congr rfl fun k _ => ?_
  have el : lidx_main_v5 (ix3 b last m) k = ix3 b last k :=
    funext fun a => Fin.ext (by match a with | ⟨0, _⟩ => rfl | ⟨1, _⟩ => rfl | ⟨2, _⟩ => rfl)
  have er : ridx_main_v5 (ix3 b last m) k = ix3 b m k :=
    funext fun a => Fin.ext (by match a with | ⟨0, _⟩ => rfl | ⟨1, _⟩ => rfl | ⟨2, _⟩ => rfl)
  rw [el, er, v4_at, v0_at]

/-- The reduced index (b, l) with the coordinate k put back on the last axis is (b, l, k). -/
theorem lift_at (h : S8x2048x2048.Reduces [2] S8x2048) (b : Fin 8) (l : Fin 2048)
    (k : Fin (S8x2048x2048.size 2)) : h.lift (ix2 b l) k = ix3 b l (⟨k.val, k.isLt⟩ : Fin 2048) := by
  funext c; apply Fin.ext
  fin_cases c <;> rfl

/-- The maximum of the scores of batch element b, folded from −∞. -/
theorem v6_at (b : Fin 8) :
    val_main_v6 (F := Ideal) x0 x1 x2 (ix2 b last)
      = (Finset.univ : Finset (Fin 2048)).fold max Cert.Spec.negInf (Cert.Spec.s x0 x1 x2 b) := by
  have h : S8x2048x2048.Reduces [2] S8x2048 := by decide
  unfold val_main_v6
  rw [Host.reduce_eq_fold_single FloatOps.maximumf _ _ _ h]
  have hf : (val_main_v5 (F := Ideal) x0 x1 x2 ∘ h.lift (ix2 b last)) = Cert.Spec.s x0 x1 x2 b :=
    funext fun k => (congrArg (val_main_v5 (F := Ideal) x0 x1 x2) (lift_at h b last k)).trans
      (v5_at x0 x1 x2 b ⟨k.val, k.isLt⟩)
  exact congrArg (fun f => Finset.fold max Cert.Spec.negInf f (Finset.univ : Finset (Fin 2048))) hf

/-- The broadcast −∞. -/
theorem v7_at (j : S8x2048.Idx) : val_main_v7 (F := Ideal) j = Cert.Spec.negInf := by
  rw [val_main_v7_apply, val_main_cst_0_apply]
  rfl

/-- The shift: −∞ compared with the folded maximum. -/
theorem v8_at (b : Fin 8) :
    val_main_v8 (F := Ideal) x0 x1 x2 (ix2 b last) = Cert.Spec.refShift x0 x1 x2 b := by
  rw [val_main_v8_apply, v7_at, v6_at]
  rfl

/-- The shift broadcast along the positions. -/
theorem v10_at (b : Fin 8) (l m : Fin 2048) :
    val_main_v10 (F := Ideal) x0 x1 x2 (ix3 b l m) = val_main_v8 (F := Ideal) x0 x1 x2 (ix2 b l) := by
  rw [val_main_v10_apply, val_main_v9_apply]
  exact congrArg (val_main_v8 (F := Ideal) x0 x1 x2)
    (funext fun a => Fin.ext (by match a with | ⟨0, _⟩ => rfl | ⟨1, _⟩ => rfl))

/-- The exponential of the shifted score. -/
theorem v12_at (b : Fin 8) (m : Fin 2048) :
    val_main_v12 (F := Ideal) x0 x1 x2 (ix3 b last m)
      = Ideal.exp (Cert.Spec.s x0 x1 x2 b m - Cert.Spec.refShift x0 x1 x2 b) := by
  rw [val_main_v12_apply, val_main_v11_apply, v5_at, v10_at, v8_at]
  rfl

/-- The sum of the exponentials, from 0. -/
theorem v13_at (b : Fin 8) :
    val_main_v13 (F := Ideal) x0 x1 x2 (ix2 b last)
      = Ideal.ofBits .f32 0x00000000#32
        + ∑ m : Fin 2048, Ideal.exp (Cert.Spec.s x0 x1 x2 b m - Cert.Spec.refShift x0 x1 x2 b) := by
  rw [val_main_v13_apply, val_main_cst_1_apply]
  refine congrArg₂ (· + ·) rfl (Finset.sum_congr rfl fun k _ => ?_)
  have e : idx_main_v13 (ix2 b last) k = ix3 b last k :=
    funext fun a => Fin.ext (by match a with | ⟨0, _⟩ => rfl | ⟨1, _⟩ => rfl | ⟨2, _⟩ => rfl)
  rw [e, v12_at]

/-- The sum broadcast along the positions. -/
theorem v15_at (b : Fin 8) (l m : Fin 2048) :
    val_main_v15 (F := Ideal) x0 x1 x2 (ix3 b l m) = val_main_v13 (F := Ideal) x0 x1 x2 (ix2 b l) := by
  rw [val_main_v15_apply, val_main_v14_apply]
  exact congrArg (val_main_v13 (F := Ideal) x0 x1 x2)
    (funext fun a => Fin.ext (by match a with | ⟨0, _⟩ => rfl | ⟨1, _⟩ => rfl))

/-- The weight of position m. -/
theorem v16_at (b : Fin 8) (m : Fin 2048) :
    val_main_v16 (F := Ideal) x0 x1 x2 (ix3 b last m)
      = Ideal.div (Ideal.exp (Cert.Spec.s x0 x1 x2 b m - Cert.Spec.refShift x0 x1 x2 b))
          (Ideal.ofBits .f32 0x00000000#32
            + ∑ m' : Fin 2048, Ideal.exp (Cert.Spec.s x0 x1 x2 b m' - Cert.Spec.refShift x0 x1 x2 b)) := by
  rw [val_main_v16_apply, v12_at, v15_at, v13_at]
  rfl

/-- The weighted row. -/
theorem v17_at (b : Fin 8) (e : Fin 1024) :
    val_main_v17 (F := Ideal) x0 x1 x2 (ix3 b last e)
      = Cert.Spec.attn x0 x1 x2 b (Cert.Spec.refShift x0 x1 x2 b) e := by
  rw [val_main_v17_apply]
  refine Finset.sum_congr rfl fun k _ => ?_
  have el : lidx_main_v17 (ix3 b last e) k = ix3 b last k :=
    funext fun a => Fin.ext (by match a with | ⟨0, _⟩ => rfl | ⟨1, _⟩ => rfl | ⟨2, _⟩ => rfl)
  have er : ridx_main_v17 (ix3 b last e) k = ix3 b k e :=
    funext fun a => Fin.ext (by match a with | ⟨0, _⟩ => rfl | ⟨1, _⟩ => rfl | ⟨2, _⟩ => rfl)
  rw [el, er, v16_at, v0_at]

/-- The second bias broadcast at (b, l, v) is entry v of the bias. -/
theorem v20_at (b : Fin 8) (l : Fin 2048) (v : Fin 512) :
    val_main_v20 (F := Ideal) x4 (ix3 b l v) = x4 (ix1 v) := by
  rw [val_main_v20_apply, val_main_v19_apply]
  exact congrArg x4 (funext fun a => Fin.ext (by match a with | ⟨0, _⟩ => rfl))

/-- The output projection of the weighted row. -/
theorem v21_at (b : Fin 8) (v : Fin 512) :
    val_main_v21 (F := Ideal) x0 x1 x2 x3 x4 (ix3 b last v) = Cert.Spec.refOut x0 x1 x2 x3 x4 b v := by
  rw [val_main_v21_apply, val_main_v18_apply, v20_at]
  refine congrArg₂ (· + ·) (Finset.sum_congr rfl fun k _ => ?_) rfl
  have el : lidx_main_v18 (ix3 b last v) k = ix3 b last k :=
    funext fun a => Fin.ext (by match a with | ⟨0, _⟩ => rfl | ⟨1, _⟩ => rfl | ⟨2, _⟩ => rfl)
  have er : ridx_main_v18 (ix3 b last v) k = ix2 v k :=
    funext fun a => Fin.ext (by match a with | ⟨0, _⟩ => rfl | ⟨1, _⟩ => rfl)
  rw [el, er, v17_at]

/-- The reference's result at (b, v) is the specification's. -/
theorem ref_at (b : Fin 8) (v : Fin 512) :
    val_main_v23 (F := Ideal) x0 x1 x2 x3 x4 (ix2 b v) = Cert.Spec.refOut x0 x1 x2 x3 x4 b v := by
  rw [val_main_v23_apply, val_main_v22_apply, ← v21_at]
  refine congrArg (val_main_v21 (F := Ideal) x0 x1 x2 x3 x4) (funext fun a => Fin.ext ?_)
  have hv : v.val < 512 := v.isLt
  match a with
  | ⟨0, _⟩ => show (b.val * 512 + v.val) / 512 = b.val; omega
  | ⟨1, _⟩ => rfl
  | ⟨2, _⟩ => show (b.val * 512 + v.val) % 512 = v.val; omega

/-- The reference's result, index by index, is the specification's. -/
theorem ref_eq (x0 : (⟨S8x2048x1024, .i32⟩ : BufTy).Contents (Elt Ideal))
    (x1 : (⟨S1024x1024, .f32⟩ : BufTy).Contents (Elt Ideal)) (x2 : (⟨S1024, .f32⟩ : BufTy).Contents (Elt Ideal))
    (x3 : (⟨S512x1024, .f32⟩ : BufTy).Contents (Elt Ideal)) (x4 : (⟨S512, .f32⟩ : BufTy).Contents (Elt Ideal))
    (i : S8x512.Idx) :
    Cert.ReferenceIdeal.Read.val_main_v23 (F := Ideal) x0 x1 x2 x3 x4 i
      = Cert.Spec.refOut x0 x1 x2 x3 x4 (i 0) (i 1) := by
  obtain ⟨b, v, rfl⟩ : ∃ (b : Fin 8) (v : Fin 512), i = ix2 b v := ⟨i 0, i 1, eq_ix2 i⟩
  exact ref_at x0 x1 x2 x3 x4 b v

end Cert.RefSide

end
-- ==== Proof.LibRealArith.lean ====
/-
  Real-number arithmetic inside the extended reals: the entries that are real numbers, the operations that keep
  them so, and the two identities of batch normalisation that hold once every entry is real.

  An extended real is a real number, +∞ or −∞. Sums, differences, products and maxima of reals are real; so is an
  exact sum of finitely many reals, hence a contraction (a matrix product, with or without an accumulator), a sum
  along axes, and a scatter-addition — each entry of the result is an entry of the operand plus the sum of the
  updates that land on it. A gather only re-reads entries of its operand. A quotient by a real that is not zero is
  real, and division by a nonzero real is the product with its reciprocal on every extended real, so a product
  with `1 / c` is the quotient by `c`.

  Batch normalisation: a column h_1 … h_N (N > 0) has mean μ = (Σ h_i) / N. Its centred variance
  (Σ (h_i − μ)·(h_i − μ)) / N is its moment variance (Σ h_i·h_i) / N − μ·μ, because
  Σ (h_i − μ)² = Σ h_i² − 2 μ Σ h_i + N μ² and Σ h_i = N μ; and (x − μ)·r·γ + β = x·(γ·r) + (β − μ·(γ·r)).
  Both are identities of real numbers; subtraction and distributivity fail at the infinities, so on the extended
  reals they are stated for real entries.
-/
import Mathlib
import Idealize.ShloMosaic.PureOps.Ideal
import Idealize.ShloMosaic.PureOps.Ideal.Laws

noncomputable section

namespace Cert.LibRealArith

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is real, and is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul]; congr 1; field_simp

theorem IsReal.div_coe {x : EReal} (hx : IsReal x) {c : ℝ} (hc : c ≠ 0) : IsReal (Ideal.div x (c : EReal)) := by
  obtain ⟨a, rfl⟩ := hx; exact ⟨a / c, div_coe_coe a hc⟩

/-- The product with the reciprocal of a nonzero real is the quotient by it, on every extended real. -/
theorem mul_one_div (x : EReal) {c : ℝ} (hc : c ≠ 0) :
    x * Ideal.div 1 (c : EReal) = Ideal.div x (c : EReal) := by
  rw [Ideal.div_coe hc x, Ideal.div_coe hc 1, one_mul]

/-- The reciprocal square root of a positive real is a positive real. -/
theorem rsqrt_coe_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-! ## The two variances -/

/-- Over the reals: the centred second moment is the second moment minus the squared mean. -/
theorem real_var_eq {ι : Type*} [Fintype ι] (f : ι → ℝ) {n : ℝ} (hn : n ≠ 0) (hcard : (Fintype.card ι : ℝ) = n) :
    (∑ i, (f i - (∑ j, f j) / n) * (f i - (∑ j, f j) / n)) / n
      = (∑ i, f i * f i) / n - (∑ j, f j) / n * ((∑ j, f j) / n) := by
  have h1 : ∀ i, (f i - (∑ j, f j) / n) * (f i - (∑ j, f j) / n)
      = f i * f i - 2 * ((∑ j, f j) / n) * f i + ((∑ j, f j) / n) * ((∑ j, f j) / n) := fun i => by ring
  simp only [h1, Finset.sum_add_distrib, Finset.sum_sub_distrib, ← Finset.mul_sum, Finset.sum_const,
    Finset.card_univ, nsmul_eq_mul, hcard]
  field_simp
  ring

/-- On the extended reals, for a column of real entries and a real count `n ≠ 0` equal to the number of rows: the
    centred variance (mean subtracted, squared, summed, divided) is the moment variance (mean of squares minus the
    squared mean). -/
theorem var_eq {ι : Type*} [Fintype ι] (h : ι → EReal) (hh : ∀ i, IsReal (h i)) {n : ℝ} (hn : n ≠ 0)
    (hcard : (Fintype.card ι : ℝ) = n) :
    Ideal.div (∑ i, (h i - Ideal.div (∑ j, h j) (n : EReal)) * (h i - Ideal.div (∑ j, h j) (n : EReal))) (n : EReal)
      = Ideal.div (∑ i, h i * h i) (n : EReal)
          - Ideal.div (∑ j, h j) (n : EReal) * Ideal.div (∑ j, h j) (n : EReal) := by
  choose f hf using hh
  have hfun : h = fun i => ((f i : ℝ) : EReal) := funext hf
  subst hfun
  simp only [sum_coe, div_coe_coe _ hn, ← EReal.coe_sub, ← EReal.coe_mul]
  exact congrArg _ (real_var_eq f hn hcard)

/-! ## The two normalisations -/

/-- Over real entries: centre, scale by `r`, by `γ`, shift by `β` — or scale by `γ·r` and shift by `β − μ·(γ·r)`. -/
theorem affine_eq {x μ r γ β : EReal} (hx : IsReal x) (hμ : IsReal μ) (hr : IsReal r) (hγ : IsReal γ) (hβ : IsReal β) :
    (x - μ) * r * γ + β = x * (γ * r) + (β - μ * (γ * r)) := by
  obtain ⟨a, rfl⟩ := hx; obtain ⟨m, rfl⟩ := hμ; obtain ⟨s, rfl⟩ := hr; obtain ⟨g, rfl⟩ := hγ; obtain ⟨b, rfl⟩ := hβ
  simp only [← EReal.coe_sub, ← EReal.coe_mul, ← EReal.coe_add]
  congr 1; ring

/-! ## Arrays of real entries -/

/-- Every entry of the array is a real number. -/
def AllReal {ι : Type*} (x : ι → EReal) : Prop := ∀ i, IsReal (x i)

theorem AllReal.add {ι : Type*} {x y : ι → EReal} (hx : AllReal x) (hy : AllReal y) : AllReal fun i => x i + y i :=
  fun i => (hx i).add (hy i)
theorem AllReal.sub {ι : Type*} {x y : ι → EReal} (hx : AllReal x) (hy : AllReal y) : AllReal fun i => x i - y i :=
  fun i => (hx i).sub (hy i)
theorem AllReal.mul {ι : Type*} {x y : ι → EReal} (hx : AllReal x) (hy : AllReal y) : AllReal fun i => x i * y i :=
  fun i => (hx i).mul (hy i)
theorem AllReal.max {ι : Type*} {x y : ι → EReal} (hx : AllReal x) (hy : AllReal y) : AllReal fun i => max (x i) (y i) :=
  fun i => (hx i).max (hy i)
/-- Re-reading entries (a gather, a transpose, a slice, a broadcast) keeps them real. -/
theorem AllReal.comp {ι κ : Type*} {x : ι → EReal} (hx : AllReal x) (f : κ → ι) : AllReal fun k => x (f k) :=
  fun k => hx (f k)

/-- A gather's entries are entries of its operand. -/
theorem gather {s si t : Shape} {w : Nat} (d : GatherDims s si t) {x : s.Idx → EReal} (hx : AllReal x) (idx : IVec si w) :
    AllReal (Host.gather d x idx) := fun j => hx _

/-- A scatter-addition of real updates onto a real operand is real: an entry is the operand's plus a finite sum of updates. -/
theorem hostScatterAdd {s si su : Shape} (d : ScatterDims s si su) {w : Nat} {x : s.Idx → EReal} (hx : AllReal x)
    (idx : IVec si w) {upd : su.Idx → EReal} (hu : AllReal upd) : AllReal (Ideal.hostScatterAdd d x idx upd) :=
  fun i => (hx i).add (IsReal.sum _ fun j _ => hu j)

/-- A host sum along axes of a real array from a real initial value is real. -/
theorem hostReduceAdd {s : Shape} {axes : List (Fin s.rank)} {t : Shape} (h : s.ReducesTo axes t) {x : s.Idx → EReal}
    (hx : AllReal x) {init : EReal} (hi : IsReal init) : AllReal (Ideal.hostReduceAdd h x init) :=
  fun j => hi.add (IsReal.sum _ fun i _ => hx i)

/-- A vector sum along axes of a real array is real. -/
theorem reduceAdd {s : Shape} {axes : List (Fin s.rank)} {t : Shape} (h : s.Reduces axes t) {x : s.Idx → EReal}
    (hx : AllReal x) : AllReal (Ideal.reduceAdd h x) :=
  fun j => IsReal.sum _ fun i _ => hx i

/-- A contraction of real operands into a real accumulator is real. -/
theorem matmul {sl sr so : Shape} (d : DotDims sl sr so) {lhs : sl.Idx → EReal} {rhs : sr.Idx → EReal} {acc : so.Idx → EReal}
    (hl : AllReal lhs) (hr : AllReal rhs) (ha : AllReal acc) : AllReal (Ideal.matmul d lhs rhs acc) :=
  fun j => (ha j).add (IsReal.sum _ fun k _ => (hl _).mul (hr _))

/-- A sum of products of real factors is real (a contraction with no accumulator, read at an entry). -/
theorem sum_mul {κ : Type*} [Fintype κ] {L R : κ → EReal} (hL : AllReal L) (hR : AllReal R) : IsReal (∑ k, L k * R k) :=
  IsReal.sum _ fun k _ => (hL k).mul (hR k)

/-- A quotient of a real array by an array of nonzero reals is real. -/
theorem div {ι : Type*} {x y : ι → EReal} (hx : AllReal x) (hy : ∀ i, ∃ r : ℝ, r ≠ 0 ∧ y i = (r : EReal)) :
    AllReal fun i => Ideal.div (x i) (y i) := fun i => by
  obtain ⟨r, hr, e⟩ := hy i
  show IsReal (Ideal.div (x i) (y i))
  rw [e]; exact (hx i).div_coe hr

/-- The larger of a real and one is a real that is at least one, so nonzero: the divisor of a mean over a count that
    may be zero. -/
theorem max_one_ne_zero {x : EReal} (hx : IsReal x) : ∃ r : ℝ, r ≠ 0 ∧ max x 1 = (r : EReal) := by
  obtain ⟨a, rfl⟩ := hx
  refine ⟨Max.max a 1, ?_, ?_⟩
  · have : (1 : ℝ) ≤ Max.max a 1 := le_max_right a 1
    intro h; rw [h] at this; norm_num at this
  · rw [show (1 : EReal) = ((1 : ℝ) : EReal) from rfl]
    exact (EReal.coe_strictMono.monotone.map_max).symm

end Cert.LibRealArith

end
-- ==== Proof.LibFiniteEntry.lean ====
/-
  An entry that passes the finiteness test is a real number.

  An extended real is a real number, +∞ or −∞; its absolute value is the larger of it and its negative, which for +∞
  and for −∞ is +∞. So an extended real whose absolute value is strictly below +∞ is a real number
  (`isReal_of_abs_lt_top`), and so is one for which the comparison "absolute value < the binary32 pattern of +∞"
  answers the bit 1 (`isReal_of_cmp`): the form in which a "every input is finite" precondition tests each entry.
-/
import Mathlib
import Idealize.ShloMosaic.PureOps.Ideal
import proofs.«167905_j9560597200957_2_alg».proof.Proof.LibRealArith

noncomputable section

namespace Cert.LibFiniteEntry

open Idealize.ShloMosaic Cert.LibRealArith

/-- The binary32 pattern of +∞. -/
theorem ofBits_inf : Ideal.ofBits .f32 0x7F800000#32 = ⊤ := by
  simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | top => exact absurd h (by simp)
  | coe r => exact ⟨r, rfl⟩

/-- The same, from the comparison's one-bit answer against the pattern of +∞. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  unfold Ideal.cmp at h
  simp [hn] at h

end Cert.LibFiniteEntry

end
-- ==== Proof.Finite.lean ====
/-
  What the precondition says of the first weight and its bias: every entry is a real number.

  The precondition is a conjunction of four tests, one per float argument, each "every entry has absolute value below
  +∞". A conjunction that holds has both sides holding; a conjunction over all entries that holds, holds at each
  entry; and an extended real whose absolute value is below +∞ is a real number.
-/
import proofs.«167905_j9560597200957_2_alg».proof.Pre_finite_inputs
import proofs.«167905_j9560597200957_2_alg».proof.Proof.Gen.Pre_finite_inputs
import proofs.«167905_j9560597200957_2_alg».proof.Proof.LibFiniteEntry
import Idealize.ShloMosaic.Lib.ReduceAll
import Idealize.ShloMosaic.Lib.ValueIdx

noncomputable section

namespace Cert.Finite

open Idealize.ShloMosaic Idealize.ShloMosaic.ValueIdx Cert.Pre_finite_inputs Cert.Pre_finite_inputs.Gen

/-- The scalar shape has one index. -/
instance : Subsingleton Cert.Pre_finite_inputs.S_.Idx := ⟨fun a b => funext fun d => d.elim0⟩

/-- Under the precondition every entry of the first weight and of its bias is a real number. -/
theorem reals_of_pre (a0 : IVec Cert.Pre_finite_inputs.S8x2048x1024 32)
    (a1 : FVec Ideal Cert.Pre_finite_inputs.S1024x1024 .f32) (a2 : FVec Ideal Cert.Pre_finite_inputs.S1024 .f32)
    (a3 : FVec Ideal Cert.Pre_finite_inputs.S512x1024 .f32) (a4 : FVec Ideal Cert.Pre_finite_inputs.S512 .f32)
    (h : Cert.Pre_finite_inputs.fn (F := Ideal) a0 a1 a2 a3 a4 = fun _ => 1#1) :
    (∀ i, Cert.LibRealArith.IsReal (a1 i)) ∧ (∀ i, Cert.LibRealArith.IsReal (a2 i)) := by
  have e := congrFun h ix0
  dsimp only [Cert.Pre_finite_inputs.fn, Cert.Pre_finite_inputs.fn_part1] at e
  obtain ⟨e13, -⟩ := IntOp.andi_eq_one.1 e
  obtain ⟨e8, -⟩ := IntOp.andi_eq_one.1 e13
  obtain ⟨e3, e7⟩ := IntOp.andi_eq_one.1 e8
  refine ⟨fun i => ?_, fun i => ?_⟩
  · exact Cert.LibFiniteEntry.isReal_of_cmp (a1 i) (Host.reduce_andi_all _ _ _ _ ix0 e3 i)
  · exact Cert.LibFiniteEntry.isReal_of_cmp (a2 i) (Host.reduce_andi_all _ _ _ _ ix0 e7 i)

end Cert.Finite

end
-- ==== Proof.KernelRun.lean ====
/-
  From the blocks the kernel writes back to the array the program returns.

  The grid has 8 × 4 points; point t has coordinates (t / 4, t % 4). The output window's block at point t is block
  (t / 4, 0, 0) of the array [8, 1, 512], a block being [1, 1, 512], and it is written back exactly at the points with
  t % 4 = 3. So if at each such point the block holds row t / 4 of a function G, the array ends holding
  (b, 0, v) ↦ G b v: row b is covered by the point 4 b + 3. The program then reshapes [8, 1, 512] to [8, 512], and
  entry (b, v) of the result is entry (b, 0, v) of the array: both are at row-major position 512 b + v.
-/
import proofs.«167905_j9560597200957_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Idealize.ShloMosaic.ValueIdx

variable (m : (ℓ : Loc nD τ sig) → Buf (Elt Ideal) ℓ) (ρ : Dev nD → PrngReg)

/-- The array [8, 1, 512] whose entry (b, 0, v) is G b v. -/
abbrev W (G : Dev nD → Fin 8 → Fin 512 → EReal) (c : Dev nD) : S8x1x512.Idx → EReal := fun i => G c (i 0) (i 2)

/-- An index of a block [1, 1, 512] is (0, 0, v). -/
theorem blockIdx_eq (y : S1x1x512.Idx) : y = ix3 (0 : Fin 1) (0 : Fin 1) (y 2) := by
  funext a; apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => rfl

/-- The output window's block index at point t is (t / 4, 0, 0). -/
theorem idx_facts : ∀ t : Fin cfg0.N, win0_6.index t (0 : Fin 3) = t.val / 4 ∧ win0_6.index t (1 : Fin 3) = 0
    ∧ win0_6.index t (2 : Fin 3) = 0 :=
  (by decide +kernel : ∀ t : Fin grid0.N, _)

/-- What a writing-back point t writes back is block t of the array of G. -/
theorem flushed_eq (G : Dev nD → Fin 8 → Fin 512 → EReal)
    (hG : ∀ (c : Dev nD) (t : Fin cfg0.N) (b : Fin 8), t.val % 4 = 3 → b.val = t.val / 4 → ∀ v : Fin 512,
      (outsAt0 (F := Ideal) m c t.val t.isLt).1 (ix3 (0 : Fin 1) (0 : Fin 1) v) = G c b v)
    (c : Dev nD) (t : Fin cfg0.N) (hf : (cfg0.win 6).flush t = true) :
    (dats (F := Ideal) m 0 c).flushed 6 t = ((cfg0.win 6).blk t).view.read (Elt Ideal) (W G c) := by
  have h3 : t.val % 4 = 3 := (flush0_6 t).mp hf
  have hN : cfg0.N = 32 := N_0
  have hb : t.val / 4 < 8 := by have := t.isLt; omega
  obtain ⟨e0, e1, e2⟩ := idx_facts t
  show (cfg0.win 6).cut (grid0.coords t) ((dats (F := Ideal) m 0 c).after 6 t) = _
  rw [after0_6]
  refine funext fun (y : S1x1x512.Idx) => ?_
  obtain ⟨v, rfl⟩ : ∃ v : Fin 512, y = ix3 (0 : Fin 1) (0 : Fin 1) v := ⟨y 2, blockIdx_eq y⟩
  refine (hG c t ⟨t.val / 4, hb⟩ h3 rfl v).trans ?_
  rw [View.read_apply]
  show G c _ v = G c ((((cfg0.win 6).blk t).view.emb (ix3 (0 : Fin 1) (0 : Fin 1) v)) 0)
    ((((cfg0.win 6).blk t).view.emb (ix3 (0 : Fin 1) (0 : Fin 1) v)) 2)
  refine congrArg₂ (G c) (Fin.ext ?_) (Fin.ext ?_)
  · show t.val / 4 = win0_6.index t (0 : Fin 3) * 1 + 1 * 0
    rw [e0]; omega
  · show v.val = win0_6.index t (2 : Fin 3) * 512 + 1 * v.val
    rw [e2]; omega

/-- An index of the array is in point t's block iff each coordinate is in the block's range on its axis. -/
theorem mem_blk (t : Fin cfg0.N) (i : S8x1x512.Idx) :
    i ∈ ((cfg0.win 6).blk t).view.set ↔ ∀ a : Fin 3, win0_6.index t a * S1x1x512.size a ≤ (i a).val
      ∧ (i a).val < win0_6.index t a * S1x1x512.size a + S1x1x512.size a := by
  show i ∈ ((View.whole main_v6).slice (win0_6.rect t)).set ↔ _
  rw [View.set_slice_whole, Rect.mem_set_unit]
  exact Iff.rfl

/-- Row b of the array is covered by the writing-back point 4 b + 3. -/
theorem cover (i : S8x1x512.Idx) :
    ∃ t : Fin cfg0.N, (cfg0.win 6).flush t = true ∧ i ∈ ((cfg0.win 6).blk t).view.set := by
  have hN : cfg0.N = 32 := N_0
  have h0 : (i 0).val < 8 := (i 0).isLt
  have h1 : (i 1).val < 1 := (i 1).isLt
  have h2 : (i 2).val < 512 := (i 2).isLt
  obtain ⟨t, ht⟩ : ∃ t : Fin cfg0.N, t.val = 4 * (i 0).val + 3 := ⟨⟨4 * (i 0).val + 3, by omega⟩, rfl⟩
  obtain ⟨e0, e1, e2⟩ := idx_facts t
  refine ⟨t, (flush0_6 t).mpr (by omega), ?_⟩
  rw [mem_blk]
  intro a
  match a with
  | ⟨0, _⟩ =>
    show win0_6.index t (0 : Fin 3) * 1 ≤ (i 0).val ∧ (i 0).val < win0_6.index t (0 : Fin 3) * 1 + 1
    rw [e0]; omega
  | ⟨1, _⟩ =>
    show win0_6.index t (1 : Fin 3) * 1 ≤ (i 1).val ∧ (i 1).val < win0_6.index t (1 : Fin 3) * 1 + 1
    rw [e1]; omega
  | ⟨2, _⟩ =>
    show win0_6.index t (2 : Fin 3) * 512 ≤ (i 2).val ∧ (i 2).val < win0_6.index t (2 : Fin 3) * 512 + 512
    rw [e2]; omega

/-- So the array ends holding (b, 0, v) ↦ G b v. -/
theorem final (G : Dev nD → Fin 8 → Fin 512 → EReal)
    (hG : ∀ (c : Dev nD) (t : Fin cfg0.N) (b : Fin 8), t.val % 4 = 3 → b.val = t.val / 4 → ∀ v : Fin 512,
      (outsAt0 (F := Ideal) m c t.val t.isLt).1 (ix3 (0 : Fin 1) (0 : Fin 1) v) = G c b v)
    (c : Dev nD) : (dats (F := Ideal) m 0 c).arrAt 6 cfg0.N = W G c :=
  (dats (F := Ideal) m 0 c).arrAt_eq_of_cover 6 (W G c) (flushed_eq m G hG c) cover

/-- The reshape's result: entry (b, v) of [8, 512] is entry (b, 0, v) of the array. -/
theorem tail_eq (G : Dev nD → Fin 8 → Fin 512 → EReal)
    (hG : ∀ (c : Dev nD) (t : Fin cfg0.N) (b : Fin 8), t.val % 4 = 3 → b.val = t.val / 4 → ∀ v : Fin 512,
      (outsAt0 (F := Ideal) m c t.val t.isLt).1 (ix3 (0 : Fin 1) (0 : Fin 1) v) = G c b v)
    (c : Dev nD) :
    Pipeline.afterTail₀ cfgs (dats (F := Ideal) m) 0 (V0 m) [hostOps1] c main_v7
      = fun i : S8x512.Idx => G c (i 0) (i 1) := by
  unfold Pipeline.afterTail₀
  show StableHlo.after hostOps1 _ (Proc.devRef .tc main_v7) = _
  after_results
  funext i
  have hA : Pipeline.withArrays (cfgs 0).spec c (V0 m c) (fun w => (dats (F := Ideal) m 0 c).arrAt w (cfgs 0).N)
      (Proc.devRef .tc main_v6) = W G c :=
    (Pipeline.withArrays_arr spec0 launch0.win.arr_inj c _ _ 6).trans (final m G hG c)
  show shapeCast S8x512 (Pipeline.withArrays (cfgs 0).spec c (V0 m c)
      (fun w => (dats (F := Ideal) m 0 c).arrAt w (cfgs 0).N) (Proc.devRef .tc main_v6)) shapeCasts_S8x1x512_S8x512 i
    = G c (i 0) (i 1)
  rw [hA]
  refine (shapeCast_apply (W G c) shapeCasts_S8x1x512_S8x512 i (ix3 (i 0) (0 : Fin 1) (i 1)) ?_).trans rfl
  rewrite [Shape.rowMajor_val_three, Shape.rowMajor_val_two]
  show ((i 0).val * 1 + 0) * 512 + (i 1).val = (i 0).val * 512 + (i 1).val
  omega

/-- The run, read: the returned array at (b, v) ↦ G b v, the arguments unchanged. -/
theorem run (G : Dev nD → Fin 8 → Fin 512 → EReal)
    (hG : ∀ (c : Dev nD) (t : Fin cfg0.N) (b : Fin 8), t.val % 4 = 3 → b.val = t.val / 4 → ∀ v : Fin 512,
      (outsAt0 (F := Ideal) m c t.val t.isLt).1 (ix3 (0 : Fin 1) (0 : Fin 1) v) = G c b v) :
    θ_run (defs (F := Ideal)) (onTc (τ := τ) (main (F := Ideal))) ⟨m, fun _ => 0, ρ⟩ (fun r => ∀ c : Dev nD,
      r.2.mem ((c.tc : Thread nD τ).loc main_v7) = (fun i : S8x512.Idx => G c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨((h c).2 main_v7 (Pipeline.mem_restRefs_of main_v7 (by decide) (by decide))).trans (tail_eq m G hG c),
      ((h c).1 0).trans (((dats (F := Ideal) m 0 c).arrAt_in 0 rfl _).trans ((A_eq m c 0).trans (V_main_arg0 m c))),
      ((h c).1 2).trans (((dats (F := Ideal) m 0 c).arrAt_in 2 rfl _).trans ((A_eq m c 2).trans (V_main_arg1 m c))),
      ((h c).2 main_arg2 (Pipeline.mem_restRefs_of main_arg2 (by decide) (by decide))).trans
        (W_main_arg2 m (dats (F := Ideal) m) c),
      ((h c).1 4).trans (((dats (F := Ideal) m 0 c).arrAt_in 4 rfl _).trans ((A_eq m c 4).trans (V_main_arg3 m c))),
      ((h c).2 main_arg4 (Pipeline.mem_restRefs_of main_arg4 (by decide) (by decide))).trans
        (W_main_arg4 m (dats (F := Ideal) m) c)⟩)
    (run_main m ρ)

end Cert.KernelIdeal.KernelRun

end
-- ==== Proof.Pieces.lean ====
/-
  What each of the three control cases of the kernel body leaves in the four carried scratch buffers and in the
  output block, as the body's own arithmetic applied to the blocks it loaded.

  The body keeps, per batch element, the query row, a running maximum, a running denominator and a running
  weighted sum. The first chunk (case A) computes the query and starts the three running values from −∞, 0 and 0;
  a middle chunk (case B) updates them; the last chunk (case C) updates them and then writes the projected,
  normalised row to the output block.
-/
import proofs.«167905_j9560597200957_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sB1 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : ¬cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) (xs0 : Vec F S1x1024 .bf16) (xs1 : Vec F S1x1 .f32) (xs2 : Vec F S1x1 .f32) (xs3 : Vec F S1x1024 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay1 (k0_pay9 x0 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem sB2 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : ¬cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) (xs0 : Vec F S1x1024 .bf16) (xs1 : Vec F S1x1 .f32) (xs2 : Vec F S1x1 .f32) (xs3 : Vec F S1x1024 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay12 x0 xs0 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem sB3 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : ¬cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) (xs0 : Vec F S1x1024 .bf16) (xs1 : Vec F S1x1 .f32) (xs2 : Vec F S1x1 .f32) (xs3 : Vec F S1x1024 .f32) :
    sout0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay13 x0 xs0 xs1 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem sC1 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) (xs0 : Vec F S1x1024 .bf16) (xs1 : Vec F S1x1 .f32) (xs2 : Vec F S1x1 .f32) (xs3 : Vec F S1x1024 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay1 (k0_pay9 x0 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem sC2 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) (xs0 : Vec F S1x1024 .bf16) (xs1 : Vec F S1x1 .f32) (xs2 : Vec F S1x1 .f32) (xs3 : Vec F S1x1024 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay12 x0 xs0 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem sC3 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) (xs0 : Vec F S1x1024 .bf16) (xs1 : Vec F S1x1 .f32) (xs2 : Vec F S1x1 .f32) (xs3 : Vec F S1x1024 .f32) :
    sout0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay13 x0 xs0 xs1 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem oC6 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : ¬cond0_0 i) (hc1 : cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) (xs0 : Vec F S1x1024 .bf16) (xs1 : Vec F S1x1 .f32) (xs2 : Vec F S1x1 .f32) (xs3 : Vec F S1x1024 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = k0_pay2 (k0_pay13 x0 xs0 xs1 xs3) (k0_pay12 x0 xs0 xs1 xs2) x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem sA0 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : cond0_0 i) (hc1 : ¬cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 = k0_pay3 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem sA1 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : cond0_0 i) (hc1 : ¬cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 = k0_pay1 (k0_pay9 x0 (k0_pay3 x1 x2 x3) (k0_pay4 (F := F))) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem sA2 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : cond0_0 i) (hc1 : ¬cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 = k0_pay12 x0 (k0_pay3 x1 x2 x3) (k0_pay4 (F := F)) (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

theorem sA3 (c : Dev nD) (i : grid0.Coords) (arg2 : Memref sig .tc .vmem S1x512x1024 .i32) (harg2 : arg2.IsWhole) (arg3 : Memref sig .tc .vmem S1x1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x1x512 .f32) (harg8 : arg8.IsWhole) (arg9 : Memref sig .tc .vmem S1x1024 .bf16) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1024 .f32) (harg12 : arg12.IsWhole) (hc0 : cond0_0 i) (hc1 : ¬cond0_1 i) (x0 : Vec F S1x512x1024 .i32) (x1 : Vec F S1x1x1024 .f32) (x2 : Vec F S1024x1024 .f32) (x3 : Vec F S1x1024 .f32) (x4 : Vec F S512x1024 .f32) (x5 : Vec F S1x512 .f32) :
    sout0_A_3 c i arg2 harg2 arg3 harg3 arg4 harg4 arg5 harg5 arg6 harg6 arg7 harg7 arg8 harg8 arg9 harg9 arg10 harg10 arg11 harg11 arg12 harg12 hc0 hc1 x0 x1 x2 x3 x4 x5 = k0_pay13 x0 (k0_pay3 x1 x2 x3) (k0_pay4 (F := F)) (k0_pay6 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg9.read_unread, harg10.read_unread, harg11.read_unread, harg12.read_unread, View.ld_unit_zero (S := S1x512x1024) hz3, View.ld_unit_zero (S := S1x1x1024) hz3, View.ld_unit_zero (S := S1024x1024) hz2, View.ld_unit_zero (S := S512x1024) hz2, View.ld_unit_zero (S := S1x512) hz2, View.ld_unit_zero (S := S1x1024) hz2, View.ld_unit_zero (S := S1x1) hz2, View.readCov_unit_zero (S := S1x1024) _ hz2, View.readCov_unit_zero (S := S1x1) _ hz2]

end Cert.KernelIdeal.Pieces
end
-- ==== Proof.Payloads.lean ====
/-
  The kernel body's arithmetic read entry by entry at the extended reals.

  One chunk of 512 positions: the chunk's scores are the dot products of the query row with the chunk's token rows;
  the new running maximum is the larger of the old one and the chunk's maximum; the old running values are rescaled
  by exp (old maximum − new maximum); the chunk adds Σ_j exp (score_j − new maximum) to the denominator and
  Σ_j exp (score_j − new maximum) · token_j to the weighted sum. The query row is a matrix–vector product plus a
  bias; the output block is the quotient of the weighted sum by the denominator, projected, plus a bias.
-/
import proofs.«167905_j9560597200957_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payloads

open Cert.KernelIdeal Cert.KernelIdeal.Gen

/-- The binary32 pattern of −∞ as an extended real. -/
abbrev negInf : EReal := Ideal.ofBits .f32 0xFF800000#32

/-- A token block entry as a real number. -/
theorem pay7_apply (x0 : Vec Ideal S1x512x1024 .i32) (j : Fin 512) (f : Fin 1024) :
    k0_pay7 (F := Ideal) x0 (ix2 j f) = (((x0 (ix3 (0 : Fin 1) j f)).toInt : ℝ) : EReal) := by
  unfold k0_pay7
  show FloatOps.sitofp .bf16 (shapeCast S512x1024 x0 shapeCasts_S1x512x1024_S512x1024 (ix2 j f)) = _
  rw [shapeCast_apply x0 _ (ix2 j f) (ix3 (0 : Fin 1) j f) (by
    rw [Shape.rowMajor_val_three, Shape.rowMajor_val_two]
    show ((0 : ℕ) * 512 + j.val) * 1024 + f.val = j.val * 1024 + f.val
    omega)]
  rfl

theorem mm_q_l0 (i : S1x1024.Idx) (q : dot_S1x1024_S1024x1024_S1x1024_1_1_0_0_n_n.contr.Idx) : (dot_S1x1024_S1024x1024_S1x1024_1_1_0_0_n_n.lhsIdx i q 0).val = (i 0).val := by
  unfold DotDims.lhsIdx
  rw [dif_neg (show ¬(0 : Fin S1x1024.rank) ∈ dot_S1x1024_S1024x1024_S1x1024_1_1_0_0_n_n.lhsBatch by decide), dif_pos (show (0 : Fin S1x1024.rank) ∈ dot_S1x1024_S1024x1024_S1x1024_1_1_0_0_n_n.lhsNonContracting by decide)]
  rfl
theorem mm_q_l1 (i : S1x1024.Idx) (q : dot_S1x1024_S1024x1024_S1x1024_1_1_0_0_n_n.contr.Idx) : (dot_S1x1024_S1024x1024_S1x1024_1_1_0_0_n_n.lhsIdx i q 1).val = (q ⟨0, by decide⟩).val :=
  dot_S1x1024_S1024x1024_S1x1024_1_1_0_0_n_n.lhsIdx_val_of_single rfl i q
theorem mm_q_rn (i : S1x1024.Idx) (q : dot_S1x1024_S1024x1024_S1x1024_1_1_0_0_n_n.contr.Idx) : (dot_S1x1024_S1024x1024_S1x1024_1_1_0_0_n_n.rhsIdx i q 0).val = (i 1).val := by
  unfold DotDims.rhsIdx
  rw [dif_neg (show ¬(0 : Fin S1024x1024.rank) ∈ dot_S1x1024_S1024x1024_S1x1024_1_1_0_0_n_n.rhsBatch by decide), dif_pos (show (0 : Fin S1024x1024.rank) ∈ dot_S1x1024_S1024x1024_S1x1024_1_1_0_0_n_n.rhsNonContracting by decide)]
  rfl
theorem mm_q_rc (i : S1x1024.Idx) (q : dot_S1x1024_S1024x1024_S1x1024_1_1_0_0_n_n.contr.Idx) : (dot_S1x1024_S1024x1024_S1x1024_1_1_0_0_n_n.rhsIdx i q 1).val = (q ⟨0, by decide⟩).val :=
  dot_S1x1024_S1024x1024_S1x1024_1_1_0_0_n_n.rhsIdx_val_of_single rfl i q

/-- The contraction `dot_S1x1024_S1024x1024_S1x1024_1_1_0_0_n_n` into the zero accumulator, read at column `j`. -/
theorem mm_q {φ₁ φ₂ : FTy} (l : FVec Ideal S1x1024 φ₁) (r : FVec Ideal S1024x1024 φ₂) (j : Fin 1024) :
    FloatOps.matmul dot_S1x1024_S1024x1024_S1x1024_1_1_0_0_n_n none l r (constant S1x1024 .f32 0x00000000#32) (ix2 (0 : Fin 1) j)
      = ∑ k : Fin 1024, l (ix2 (0 : Fin 1) k) * r (ix2 j k) := by
  rw [Ideal.matmul_constant_zero_apply, ← Equiv.sum_comp (contrEquiv1 dot_S1x1024_S1024x1024_S1x1024_1_1_0_0_n_n 1024 rfl rfl).symm]
  refine Finset.sum_congr rfl fun k _ => ?_
  have hk := contrEquiv1_symm_val dot_S1x1024_S1024x1024_S1x1024_1_1_0_0_n_n 1024 rfl rfl k
  have el : dot_S1x1024_S1024x1024_S1x1024_1_1_0_0_n_n.lhsIdx (ix2 (0 : Fin 1) j) ((contrEquiv1 dot_S1x1024_S1024x1024_S1x1024_1_1_0_0_n_n 1024 rfl rfl).symm k) = ix2 (0 : Fin 1) k :=
    funext fun a => Fin.ext (by
      match a with
      | ⟨0, _⟩ => exact mm_q_l0 _ _
      | ⟨1, _⟩ => exact (mm_q_l1 _ _).trans hk)
  have er : dot_S1x1024_S1024x1024_S1x1024_1_1_0_0_n_n.rhsIdx (ix2 (0 : Fin 1) j) ((contrEquiv1 dot_S1x1024_S1024x1024_S1x1024_1_1_0_0_n_n 1024 rfl rfl).symm k) = ix2 j k :=
    funext fun a => Fin.ext (by
      match a with
      | ⟨0, _⟩ => exact mm_q_rn _ _
      | ⟨1, _⟩ => exact (mm_q_rc _ _).trans hk)
  rw [el, er]

theorem mm_s_l0 (i : S1x512.Idx) (q : dot_S1x1024_S512x1024_S1x512_1_1_0_0_n_n.contr.Idx) : (dot_S1x1024_S512x1024_S1x512_1_1_0_0_n_n.lhsIdx i q 0).val = (i 0).val := by
  unfold DotDims.lhsIdx
  rw [dif_neg (show ¬(0 : Fin S1x1024.rank) ∈ dot_S1x1024_S512x1024_S1x512_1_1_0_0_n_n.lhsBatch by decide), dif_pos (show (0 : Fin S1x1024.rank) ∈ dot_S1x1024_S512x1024_S1x512_1_1_0_0_n_n.lhsNonContracting by decide)]
  rfl
theorem mm_s_l1 (i : S1x512.Idx) (q : dot_S1x1024_S512x1024_S1x512_1_1_0_0_n_n.contr.Idx) : (dot_S1x1024_S512x1024_S1x512_1_1_0_0_n_n.lhsIdx i q 1).val = (q ⟨0, by decide⟩).val :=
  dot_S1x1024_S512x1024_S1x512_1_1_0_0_n_n.lhsIdx_val_of_single rfl i q
theorem mm_s_rn (i : S1x512.Idx) (q : dot_S1x1024_S512x1024_S1x512_1_1_0_0_n_n.contr.Idx) : (dot_S1x1024_S512x1024_S1x512_1_1_0_0_n_n.rhsIdx i q 0).val = (i 1).val := by
  unfold DotDims.rhsIdx
  rw [dif_neg (show ¬(0 : Fin S512x1024.rank) ∈ dot_S1x1024_S512x1024_S1x512_1_1_0_0_n_n.rhsBatch by decide), dif_pos (show (0 : Fin S512x1024.rank) ∈ dot_S1x1024_S512x1024_S1x512_1_1_0_0_n_n.rhsNonContracting by decide)]
  rfl
theorem mm_s_rc (i : S1x512.Idx) (q : dot_S1x1024_S512x1024_S1x512_1_1_0_0_n_n.contr.Idx) : (dot_S1x1024_S512x1024_S1x512_1_1_0_0_n_n.rhsIdx i q 1).val = (q ⟨0, by decide⟩).val :=
  dot_S1x1024_S512x1024_S1x512_1_1_0_0_n_n.rhsIdx_val_of_single rfl i q

/-- The contraction `dot_S1x1024_S512x1024_S1x512_1_1_0_0_n_n` into the zero accumulator, read at column `j`. -/
theorem mm_s {φ₁ φ₂ : FTy} (l : FVec Ideal S1x1024 φ₁) (r : FVec Ideal S512x1024 φ₂) (j : Fin 512) :
    FloatOps.matmul dot_S1x1024_S512x1024_S1x512_1_1_0_0_n_n none l r (constant S1x512 .f32 0x00000000#32) (ix2 (0 : Fin 1) j)
      = ∑ k : Fin 1024, l (ix2 (0 : Fin 1) k) * r (ix2 j k) := by
  rw [Ideal.matmul_constant_zero_apply, ← Equiv.sum_comp (contrEquiv1 dot_S1x1024_S512x1024_S1x512_1_1_0_0_n_n 1024 rfl rfl).symm]
  refine Finset.sum_congr rfl fun k _ => ?_
  have hk := contrEquiv1_symm_val dot_S1x1024_S512x1024_S1x512_1_1_0_0_n_n 1024 rfl rfl k
  have el : dot_S1x1024_S512x1024_S1x512_1_1_0_0_n_n.lhsIdx (ix2 (0 : Fin 1) j) ((contrEquiv1 dot_S1x1024_S512x1024_S1x512_1_1_0_0_n_n 1024 rfl rfl).symm k) = ix2 (0 : Fin 1) k :=
    funext fun a => Fin.ext (by
      match a with
      | ⟨0, _⟩ => exact mm_s_l0 _ _
      | ⟨1, _⟩ => exact (mm_s_l1 _ _).trans hk)
  have er : dot_S1x1024_S512x1024_S1x512_1_1_0_0_n_n.rhsIdx (ix2 (0 : Fin 1) j) ((contrEquiv1 dot_S1x1024_S512x1024_S1x512_1_1_0_0_n_n 1024 rfl rfl).symm k) = ix2 j k :=
    funext fun a => Fin.ext (by
      match a with
      | ⟨0, _⟩ => exact mm_s_rn _ _
      | ⟨1, _⟩ => exact (mm_s_rc _ _).trans hk)
  rw [el, er]

theorem mm_a_l0 (i : S1x1024.Idx) (q : dot_S1x512_S512x1024_S1x1024_1_0_0_1_n_n.contr.Idx) : (dot_S1x512_S512x1024_S1x1024_1_0_0_1_n_n.lhsIdx i q 0).val = (i 0).val := by
  unfold DotDims.lhsIdx
  rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
  rfl
theorem mm_a_l1 (i : S1x1024.Idx) (q : dot_S1x512_S512x1024_S1x1024_1_0_0_1_n_n.contr.Idx) : (dot_S1x512_S512x1024_S1x1024_1_0_0_1_n_n.lhsIdx i q 1).val = (q ⟨0, by decide⟩).val :=
  dot_S1x512_S512x1024_S1x1024_1_0_0_1_n_n.lhsIdx_val_of_single rfl i q
theorem mm_a_rn (i : S1x1024.Idx) (q : dot_S1x512_S512x1024_S1x1024_1_0_0_1_n_n.contr.Idx) : (dot_S1x512_S512x1024_S1x1024_1_0_0_1_n_n.rhsIdx i q 1).val = (i 1).val := by
  unfold DotDims.rhsIdx
  rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
  rfl
theorem mm_a_rc (i : S1x1024.Idx) (q : dot_S1x512_S512x1024_S1x1024_1_0_0_1_n_n.contr.Idx) : (dot_S1x512_S512x1024_S1x1024_1_0_0_1_n_n.rhsIdx i q 0).val = (q ⟨0, by decide⟩).val :=
  dot_S1x512_S512x1024_S1x1024_1_0_0_1_n_n.rhsIdx_val_of_single rfl i q

/-- The contraction `dot_S1x512_S512x1024_S1x1024_1_0_0_1_n_n` into the zero accumulator, read at column `j`. -/
theorem mm_a {φ₁ φ₂ : FTy} (l : FVec Ideal S1x512 φ₁) (r : FVec Ideal S512x1024 φ₂) (j : Fin 1024) :
    FloatOps.matmul dot_S1x512_S512x1024_S1x1024_1_0_0_1_n_n none l r (constant S1x1024 .f32 0x00000000#32) (ix2 (0 : Fin 1) j)
      = ∑ k : Fin 512, l (ix2 (0 : Fin 1) k) * r (ix2 k j) := by
  rw [Ideal.matmul_constant_zero_apply, ← Equiv.sum_comp (contrEquiv1 dot_S1x512_S512x1024_S1x1024_1_0_0_1_n_n 512 rfl rfl).symm]
  refine Finset.sum_congr rfl fun k _ => ?_
  have hk := contrEquiv1_symm_val dot_S1x512_S512x1024_S1x1024_1_0_0_1_n_n 512 rfl rfl k
  have el : dot_S1x512_S512x1024_S1x1024_1_0_0_1_n_n.lhsIdx (ix2 (0 : Fin 1) j) ((contrEquiv1 dot_S1x512_S512x1024_S1x1024_1_0_0_1_n_n 512 rfl rfl).symm k) = ix2 (0 : Fin 1) k :=
    funext fun a => Fin.ext (by
      match a with
      | ⟨0, _⟩ => exact mm_a_l0 _ _
      | ⟨1, _⟩ => exact (mm_a_l1 _ _).trans hk)
  have er : dot_S1x512_S512x1024_S1x1024_1_0_0_1_n_n.rhsIdx (ix2 (0 : Fin 1) j) ((contrEquiv1 dot_S1x512_S512x1024_S1x1024_1_0_0_1_n_n 512 rfl rfl).symm k) = ix2 k j :=
    funext fun a => Fin.ext (by
      match a with
      | ⟨1, _⟩ => exact mm_a_rn _ _
      | ⟨0, _⟩ => exact (mm_a_rc _ _).trans hk)
  rw [el, er]

/-- Putting coordinate `k` back on the reduced axis of the one kept row gives entry `(0, k)`. -/
theorem lift_eq (k : Fin (S1x512.size 1)) :
    reduces_S1x512_S1.lift (ix1 (0 : Fin 1)) k = ix2 (0 : Fin 1) (⟨k.val, k.isLt⟩ : Fin 512) := by
  funext c; apply Fin.ext
  match c with
  | ⟨0, _⟩ => rfl
  | ⟨1, _⟩ => rfl

/-- The chunk's score of position `j`: the query row against token row `j`. -/
theorem pay8_apply (x0 : Vec Ideal S1x512x1024 .i32) (v6 : Vec Ideal S1x1024 .bf16) (j : Fin 512) :
    k0_pay8 (F := Ideal) x0 v6 (ix2 (0 : Fin 1) j)
      = ∑ f : Fin 1024, v6 (ix2 (0 : Fin 1) f) * k0_pay7 (F := Ideal) x0 (ix2 j f) := by
  unfold k0_pay8
  exact mm_s v6 (k0_pay7 (F := Ideal) x0) j

/-- The new running maximum: the larger of the old one and the chunk's largest score. -/
theorem pay9_apply (x0 : Vec Ideal S1x512x1024 .i32) (v6 : Vec Ideal S1x1024 .bf16) (v8 : Vec Ideal S1x1 .f32) :
    k0_pay9 (F := Ideal) x0 v6 v8 (ix2 (0 : Fin 1) (0 : Fin 1))
      = max (v8 (ix2 (0 : Fin 1) (0 : Fin 1)))
          ((Finset.univ : Finset (Fin 512)).fold max negInf fun j => k0_pay8 (F := Ideal) x0 v6 (ix2 (0 : Fin 1) j)) := by
  unfold k0_pay9
  generalize k0_pay8 (F := Ideal) x0 v6 = y
  show max (v8 (ix2 0 0)) (shapeCast S1x1 (multiReduction .maximumf [1] S1 y 0xFF800000#32 reduces_S1x512_S1 (.inl rfl) rfl) shapeCasts_S1_S1x1 (ix2 0 0)) = _
  refine congrArg (max (v8 (ix2 0 0))) ?_
  refine (shapeCast_apply (multiReduction .maximumf [1] S1 y 0xFF800000#32 reduces_S1x512_S1 (.inl rfl) rfl) shapeCasts_S1_S1x1
    (ix2 (0 : Fin 1) (0 : Fin 1)) (ix1 (0 : Fin 1)) (by rw [Shape.rowMajor_val_two, Shape.rowMajor_val_one]; rfl)).trans ?_
  refine (Ideal.multiReduction_maximumf_single y 0xFF800000#32 reduces_S1x512_S1 (.inl rfl) rfl (ix1 (0 : Fin 1))).trans ?_
  have hf : (y ∘ reduces_S1x512_S1.lift (ix1 (0 : Fin 1))) = fun j : Fin 512 => y (ix2 (0 : Fin 1) j) :=
    funext fun k => congrArg y (lift_eq k)
  exact congrArg (fun f => Finset.fold max negInf f (Finset.univ : Finset (Fin 512))) hf

/-- The rescaling factor of the old running values. -/
theorem pay10_apply (x0 : Vec Ideal S1x512x1024 .i32) (v6 : Vec Ideal S1x1024 .bf16) (v8 : Vec Ideal S1x1 .f32) :
    k0_pay10 (F := Ideal) x0 v6 v8 (ix2 (0 : Fin 1) (0 : Fin 1))
      = Ideal.exp (v8 (ix2 (0 : Fin 1) (0 : Fin 1)) - k0_pay9 (F := Ideal) x0 v6 v8 (ix2 (0 : Fin 1) (0 : Fin 1))) := rfl

/-- The chunk's unnormalised weight of position `j`. -/
theorem pay11_apply (x0 : Vec Ideal S1x512x1024 .i32) (v6 : Vec Ideal S1x1024 .bf16) (v8 : Vec Ideal S1x1 .f32) (j : Fin 512) :
    k0_pay11 (F := Ideal) x0 v6 v8 (ix2 (0 : Fin 1) j)
      = Ideal.exp (k0_pay8 (F := Ideal) x0 v6 (ix2 (0 : Fin 1) j) - k0_pay9 (F := Ideal) x0 v6 v8 (ix2 (0 : Fin 1) (0 : Fin 1))) := by
  unfold k0_pay11
  generalize k0_pay9 (F := Ideal) x0 v6 v8 = m9
  generalize k0_pay8 (F := Ideal) x0 v6 = y
  show Ideal.exp (y (ix2 0 j) - broadcastTo S1x512 m9 broadcasts_S1x1_S1x512 (ix2 0 j)) = _
  rw [broadcastTo_apply m9 broadcasts_S1x1_S1x512 (ix2 (0 : Fin 1) j) (ix2 (0 : Fin 1) (0 : Fin 1)) (fun a => by
    match a with
    | ⟨0, _⟩ => rfl
    | ⟨1, _⟩ => rfl)]

/-- The new running denominator. -/
theorem pay12_apply (x0 : Vec Ideal S1x512x1024 .i32) (v6 : Vec Ideal S1x1024 .bf16) (v8 v17 : Vec Ideal S1x1 .f32) :
    k0_pay12 (F := Ideal) x0 v6 v8 v17 (ix2 (0 : Fin 1) (0 : Fin 1))
      = k0_pay10 (F := Ideal) x0 v6 v8 (ix2 (0 : Fin 1) (0 : Fin 1)) * v17 (ix2 (0 : Fin 1) (0 : Fin 1))
          + ∑ j : Fin 512, k0_pay11 (F := Ideal) x0 v6 v8 (ix2 (0 : Fin 1) j) := by
  unfold k0_pay12
  generalize k0_pay10 (F := Ideal) x0 v6 v8 = a10
  generalize k0_pay11 (F := Ideal) x0 v6 v8 = p
  rw [shapeCast_self]
  show a10 (ix2 0 0) * v17 (ix2 0 0) + shapeCast S1x1 (multiReduction .add [1] S1 p 0x00000000#32 reduces_S1x512_S1 (.inl rfl) rfl) shapeCasts_S1_S1x1 (ix2 0 0) = _
  refine congrArg (a10 (ix2 0 0) * v17 (ix2 0 0) + ·) ?_
  refine (shapeCast_apply (multiReduction .add [1] S1 p 0x00000000#32 reduces_S1x512_S1 (.inl rfl) rfl) shapeCasts_S1_S1x1
    (ix2 (0 : Fin 1) (0 : Fin 1)) (ix1 (0 : Fin 1)) (by rw [Shape.rowMajor_val_two, Shape.rowMajor_val_one]; rfl)).trans ?_
  refine (Ideal.multiReduction_add_single p 0x00000000#32 reduces_S1x512_S1 (.inl rfl) rfl (ix1 (0 : Fin 1))).trans ?_
  exact Finset.sum_congr rfl fun k _ => congrArg p (lift_eq k)

/-- The new running weighted sum, at feature `e`. -/
theorem pay13_apply (x0 : Vec Ideal S1x512x1024 .i32) (v6 : Vec Ideal S1x1024 .bf16) (v8 : Vec Ideal S1x1 .f32)
    (v25 : Vec Ideal S1x1024 .f32) (e : Fin 1024) :
    k0_pay13 (F := Ideal) x0 v6 v8 v25 (ix2 (0 : Fin 1) e)
      = k0_pay10 (F := Ideal) x0 v6 v8 (ix2 (0 : Fin 1) (0 : Fin 1)) * v25 (ix2 (0 : Fin 1) e)
          + ∑ j : Fin 512, k0_pay11 (F := Ideal) x0 v6 v8 (ix2 (0 : Fin 1) j) * k0_pay7 (F := Ideal) x0 (ix2 j e) := by
  unfold k0_pay13
  generalize k0_pay10 (F := Ideal) x0 v6 v8 = a10
  generalize k0_pay11 (F := Ideal) x0 v6 v8 = p
  generalize k0_pay7 (F := Ideal) x0 = y
  rw [shapeCast_self]
  show broadcastTo S1x1024 a10 broadcasts_S1x1_S1x1024 (ix2 0 e) * v25 (ix2 0 e)
      + FloatOps.matmul (F := Ideal) dot_S1x512_S512x1024_S1x1024_1_0_0_1_n_n none (truncf .bf16 p bitsLt_bf16_f32) y (constant S1x1024 .f32 0x00000000#32) (ix2 0 e) = _
  rw [broadcastTo_apply a10 broadcasts_S1x1_S1x1024 (ix2 (0 : Fin 1) e) (ix2 (0 : Fin 1) (0 : Fin 1)) (fun a => by
    match a with
    | ⟨0, _⟩ => rfl
    | ⟨1, _⟩ => rfl), mm_a]
  rfl

/-- The query row, at feature `f`. -/
theorem pay3_apply (v40 : Vec Ideal S1x1x1024 .f32) (v43 : Vec Ideal S1024x1024 .f32) (v46 : Vec Ideal S1x1024 .f32) (f : Fin 1024) :
    k0_pay3 (F := Ideal) v40 v43 v46 (ix2 (0 : Fin 1) f)
      = (∑ e : Fin 1024, v40 (ix3 (0 : Fin 1) (0 : Fin 1) e) * v43 (ix2 f e)) + v46 (ix2 (0 : Fin 1) f) := by
  unfold k0_pay3
  rw [shapeCast_self, shapeCast_self]
  show FloatOps.matmul (F := Ideal) dot_S1x1024_S1024x1024_S1x1024_1_1_0_0_n_n none (truncf .bf16 (shapeCast S1x1024 v40 shapeCasts_S1x1x1024_S1x1024) bitsLt_bf16_f32) (truncf .bf16 v43 bitsLt_bf16_f32) (constant S1x1024 .f32 0x00000000#32) (ix2 0 f) + v46 (ix2 0 f) = _
  rw [mm_q]
  refine congrArg (· + v46 (ix2 0 f)) (Finset.sum_congr rfl fun e _ => ?_)
  show shapeCast S1x1024 v40 shapeCasts_S1x1x1024_S1x1024 (ix2 0 e) * v43 (ix2 f e) = _
  rw [shapeCast_apply v40 _ (ix2 (0 : Fin 1) e) (ix3 (0 : Fin 1) (0 : Fin 1) e) (by
    rw [Shape.rowMajor_val_three, Shape.rowMajor_val_two]
    show ((0 : ℕ) * 1 + 0) * 1024 + e.val = 0 * 1024 + e.val
    omega)]

/-- The output block, at vocabulary entry `v`. -/
theorem pay2_apply (v40 : Vec Ideal S1x1024 .f32) (v41 : Vec Ideal S1x1 .f32) (v45 : Vec Ideal S512x1024 .f32) (v48 : Vec Ideal S1x512 .f32) (v : Fin 512) :
    k0_pay2 (F := Ideal) v40 v41 v45 v48 (ix3 (0 : Fin 1) (0 : Fin 1) v)
      = (∑ e : Fin 1024, Ideal.div (v40 (ix2 (0 : Fin 1) e)) (v41 (ix2 (0 : Fin 1) (0 : Fin 1))) * v45 (ix2 v e)) + v48 (ix2 (0 : Fin 1) v) := by
  unfold k0_pay2
  rw [shapeCast_self]
  rw [shapeCast_apply _ shapeCasts_S1x512_S1x1x512 (ix3 (0 : Fin 1) (0 : Fin 1) v) (ix2 (0 : Fin 1) v) (by
    rw [Shape.rowMajor_val_three, Shape.rowMajor_val_two]
    show 0 * 512 + v.val = ((0 : ℕ) * 1 + 0) * 512 + v.val
    omega)]
  show FloatOps.matmul (F := Ideal) dot_S1x1024_S512x1024_S1x512_1_1_0_0_n_n none (truncf .bf16 (divf v40 (broadcastTo S1x1024 v41 broadcasts_S1x1_S1x1024)) bitsLt_bf16_f32) (truncf .bf16 v45 bitsLt_bf16_f32) (constant S1x512 .f32 0x00000000#32) (ix2 0 v) + v48 (ix2 0 v) = _
  rw [mm_s]
  refine congrArg (· + v48 (ix2 0 v)) (Finset.sum_congr rfl fun e _ => ?_)
  show Ideal.div (v40 (ix2 0 e)) (broadcastTo S1x1024 v41 broadcasts_S1x1_S1x1024 (ix2 0 e)) * v45 (ix2 v e) = _
  rw [broadcastTo_apply v41 broadcasts_S1x1_S1x1024 (ix2 (0 : Fin 1) e) (ix2 (0 : Fin 1) (0 : Fin 1)) (fun a => by
    match a with
    | ⟨0, _⟩ => rfl
    | ⟨1, _⟩ => rfl)]

/-- The stored running maximum is the computed one. -/
theorem pay1_eq (v11 : FVec Ideal S1x1 .f32) : k0_pay1 (F := Ideal) v11 = v11 := by
  unfold k0_pay1; exact shapeCast_self _ _

/-- The running maximum starts at −∞, -/
theorem pay4_apply (i : S1x1.Idx) : k0_pay4 (F := Ideal) i = negInf := by
  unfold k0_pay4; rw [shapeCast_self]; rfl
/-- the running denominator at 0, -/
theorem pay5_apply (i : S1x1.Idx) : k0_pay5 (F := Ideal) i = 0 := by
  unfold k0_pay5; rw [shapeCast_self]; exact Ideal.ofBits_zero_f32
/-- and the running weighted sum at 0. -/
theorem pay6_apply (i : S1x1024.Idx) : k0_pay6 (F := Ideal) i = 0 := by
  unfold k0_pay6; rw [shapeCast_self]; exact Ideal.ofBits_zero_f32

end Cert.KernelIdeal.Payloads

end
-- ==== Proof.OnlineSoftmax.lean ====
/-
  The online (chunk by chunk) evaluation of a softmax-weighted sum, over the real numbers.

  Let σ_0, σ_1, … be real scores and ξ_0, ξ_1, … real weights. Keep a shift M, a denominator
  L = Σ_{m<n} exp (σ_m − M) and a numerator A = Σ_{m<n} exp (σ_m − M) · ξ_m over the first n scores. Taking in 512 more
  scores with a new shift M' = max M c: since exp (M − M') · exp (σ_m − M) = exp (σ_m − M'), rescaling the old L and A by
  exp (M − M') and adding the new terms gives the same two sums over the first n + 512 scores at the shift M'. From
  the start (denominator and numerator 0, whatever the factor) the first chunk gives the sums over the first 512.
  At the end the quotient A / L does not depend on the shift: both are the unshifted sums divided by exp M. Hence it is
  the softmax-weighted sum Σ_m (exp (σ_m − M') / Σ_m' exp (σ_m' − M')) · ξ_m for any other shift M'.
  All of it uses subtraction and distributivity, so it is stated for real numbers embedded in the extended reals.
-/
import Mathlib
import Idealize.ShloMosaic.PureOps.Ideal
import proofs.«167905_j9560597200957_2_alg».proof.Proof.LibRealArith

noncomputable section

namespace Cert.OnlineSoftmax

open Idealize.ShloMosaic Cert.LibRealArith

/-- The exponential of a real number, at the extended reals. -/
theorem exp_coe (r : ℝ) : Ideal.exp (r : EReal) = ((Real.exp r : ℝ) : EReal) := rfl

theorem max_coe (a b : ℝ) : max (a : EReal) (b : EReal) = ((max a b : ℝ) : EReal) :=
  (EReal.coe_strictMono.monotone.map_max).symm

/-- The largest of finitely many (at least one) real numbers, folded from −∞, is a real number. -/
theorem fold_max_isReal {n : ℕ} (f : Fin (n + 1) → EReal) (hf : ∀ j, IsReal (f j)) :
    IsReal ((Finset.univ : Finset (Fin (n + 1))).fold max ⊥ f) := by
  have h1 : (⊥ : EReal) < (Finset.univ : Finset (Fin (n + 1))).fold max ⊥ f := by
    rw [Finset.lt_fold_max]
    obtain ⟨r, hr⟩ := hf 0
    exact Or.inr ⟨0, Finset.mem_univ _, by rw [hr]; exact EReal.bot_lt_coe r⟩
  have h2 : (Finset.univ : Finset (Fin (n + 1))).fold max ⊥ f < ⊤ := by
    rw [Finset.fold_max_lt]
    refine ⟨bot_lt_top, fun j _ => ?_⟩
    obtain ⟨r, hr⟩ := hf j
    rw [hr]; exact EReal.coe_lt_top r
  exact ⟨_, (EReal.coe_toReal h2.ne h1.ne').symm⟩

variable (σ ξ : ℕ → ℝ)

/-- One more chunk, denominator. -/
theorem step_den (n : ℕ) (M c : ℝ) :
    Ideal.exp ((M : EReal) - max (M : EReal) (c : EReal)) * ((∑ m ∈ Finset.range n, Real.exp (σ m - M) : ℝ) : EReal)
        + ∑ j : Fin 512, Ideal.exp (((σ (n + j.val) : ℝ) : EReal) - max (M : EReal) (c : EReal))
      = ((∑ m ∈ Finset.range (n + 512), Real.exp (σ m - max M c) : ℝ) : EReal) := by
  rw [max_coe]
  simp only [← EReal.coe_sub, exp_coe, ← EReal.coe_mul, sum_coe, ← EReal.coe_add]
  congr 1
  rw [Finset.sum_range_add, Finset.mul_sum, Fin.sum_univ_eq_sum_range (fun j => Real.exp (σ (n + j) - max M c)) 512]
  congr 1
  refine Finset.sum_congr rfl fun m _ => ?_
  rw [← Real.exp_add]; congr 1; ring

/-- One more chunk, numerator. -/
theorem step_num (n : ℕ) (M c : ℝ) :
    Ideal.exp ((M : EReal) - max (M : EReal) (c : EReal)) * ((∑ m ∈ Finset.range n, Real.exp (σ m - M) * ξ m : ℝ) : EReal)
        + ∑ j : Fin 512, Ideal.exp (((σ (n + j.val) : ℝ) : EReal) - max (M : EReal) (c : EReal)) * ((ξ (n + j.val) : ℝ) : EReal)
      = ((∑ m ∈ Finset.range (n + 512), Real.exp (σ m - max M c) * ξ m : ℝ) : EReal) := by
  rw [max_coe]
  simp only [← EReal.coe_sub, exp_coe, ← EReal.coe_mul, sum_coe, ← EReal.coe_add]
  congr 1
  rw [Finset.sum_range_add, Finset.mul_sum,
    Fin.sum_univ_eq_sum_range (fun j => Real.exp (σ (n + j) - max M c) * ξ (n + j)) 512]
  congr 1
  refine Finset.sum_congr rfl fun m _ => ?_
  rw [← mul_assoc, ← Real.exp_add]; congr 2; ring

/-- The first chunk, denominator: from 0, whatever the rescaling factor. -/
theorem first_den (α : EReal) (c : ℝ) :
    α * 0 + ∑ j : Fin 512, Ideal.exp (((σ j.val : ℝ) : EReal) - max (⊥ : EReal) (c : EReal))
      = ((∑ m ∈ Finset.range 512, Real.exp (σ m - c) : ℝ) : EReal) := by
  rw [mul_zero, zero_add, max_eq_right bot_le]
  simp only [← EReal.coe_sub, exp_coe, sum_coe]
  exact congrArg _ (Fin.sum_univ_eq_sum_range (fun j => Real.exp (σ j - c)) 512)

/-- The first chunk, numerator. -/
theorem first_num (α : EReal) (c : ℝ) :
    α * 0 + ∑ j : Fin 512, Ideal.exp (((σ j.val : ℝ) : EReal) - max (⊥ : EReal) (c : EReal)) * ((ξ j.val : ℝ) : EReal)
      = ((∑ m ∈ Finset.range 512, Real.exp (σ m - c) * ξ m : ℝ) : EReal) := by
  rw [mul_zero, zero_add, max_eq_right bot_le]
  simp only [← EReal.coe_sub, exp_coe, ← EReal.coe_mul, sum_coe]
  exact congrArg _ (Fin.sum_univ_eq_sum_range (fun j => Real.exp (σ j - c) * ξ j) 512)

theorem den_pos (N : ℕ) (hN : 0 < N) (M : ℝ) : 0 < ∑ m ∈ Finset.range N, Real.exp (σ m - M) :=
  Finset.sum_pos (fun _ _ => Real.exp_pos _) ⟨0, Finset.mem_range.mpr hN⟩

/-- The quotient of numerator by denominator does not depend on the shift. -/
theorem quot_shift (N : ℕ) (hN : 0 < N) (M : ℝ) :
    (∑ m ∈ Finset.range N, Real.exp (σ m - M) * ξ m) / (∑ m ∈ Finset.range N, Real.exp (σ m - M))
      = (∑ m ∈ Finset.range N, Real.exp (σ m) * ξ m) / (∑ m ∈ Finset.range N, Real.exp (σ m)) := by
  have h1 : (∑ m ∈ Finset.range N, Real.exp (σ m - M) * ξ m) = (∑ m ∈ Finset.range N, Real.exp (σ m) * ξ m) / Real.exp M := by
    rw [Finset.sum_div]; exact Finset.sum_congr rfl fun m _ => by rw [Real.exp_sub]; ring
  have h2 : (∑ m ∈ Finset.range N, Real.exp (σ m - M)) = (∑ m ∈ Finset.range N, Real.exp (σ m)) / Real.exp M := by
    rw [Finset.sum_div]; exact Finset.sum_congr rfl fun m _ => by rw [Real.exp_sub]
  rw [h1, h2, div_div_div_cancel_right₀ (Real.exp_pos M).ne']

/-- The kernel's quotient is the reference's softmax-weighted sum, whatever the two shifts. -/
theorem attn_eq (M mr : ℝ) :
    Ideal.div ((∑ m ∈ Finset.range 2048, Real.exp (σ m - M) * ξ m : ℝ) : EReal)
        ((∑ m ∈ Finset.range 2048, Real.exp (σ m - M) : ℝ) : EReal)
      = ∑ m : Fin 2048, Ideal.div (Ideal.exp (((σ m.val : ℝ) : EReal) - (mr : EReal)))
          ((0 : EReal) + ∑ m' : Fin 2048, Ideal.exp (((σ m'.val : ℝ) : EReal) - (mr : EReal))) * ((ξ m.val : ℝ) : EReal) := by
  have hM := (den_pos σ 2048 (by norm_num) M).ne'
  have hr := (den_pos σ 2048 (by norm_num) mr).ne'
  rw [div_coe_coe _ hM, zero_add]
  simp only [← EReal.coe_sub, exp_coe, sum_coe]
  rw [Fin.sum_univ_eq_sum_range (fun m => Real.exp (σ m - mr)) 2048]
  simp only [div_coe_coe _ hr, ← EReal.coe_mul, sum_coe]
  congr 1
  rw [Fin.sum_univ_eq_sum_range (fun m => Real.exp (σ m - mr) / (∑ m' ∈ Finset.range 2048, Real.exp (σ m' - mr)) * ξ m) 2048,
    quot_shift σ ξ 2048 (by norm_num) M, ← quot_shift σ ξ 2048 (by norm_num) mr, Finset.sum_div]
  exact Finset.sum_congr rfl fun m _ => by ring

end Cert.OnlineSoftmax

end
-- ==== Proof.Chunk.lean ====
/-
  One chunk of the online softmax, at the extended reals, under real-valued inputs.

  If the query row, the running maximum, the running denominator and the running weighted sum entering a chunk are
  the real numbers of the recurrence over the first `n` positions, then the values leaving it are those of the
  recurrence over the first `n + 512` positions, at a new real shift; the first chunk starts the recurrence.
-/
import proofs.«167905_j9560597200957_2_alg».proof.Proof.Payloads
import proofs.«167905_j9560597200957_2_alg».proof.Proof.OnlineSoftmax

noncomputable section

open Idealize.ShloMosaic Idealize.ShloMosaic.ValueIdx

namespace Cert.KernelIdeal.Chunk

open Cert.KernelIdeal Cert.KernelIdeal.Gen Cert.KernelIdeal.Payloads Cert.OnlineSoftmax Cert.LibRealArith

/-- The binary32 pattern of −∞ denotes the bottom of the extended reals. -/
theorem negInf_eq : Payloads.negInf = (⊥ : EReal) := by simp [Payloads.negInf, Ideal.ofBits, Ideal.ieee]

variable (x0 : Vec Ideal S1x512x1024 .i32) (Q : Vec Ideal S1x1024 .bf16) (Mv Lv : Vec Ideal S1x1 .f32)
  (Av : Vec Ideal S1x1024 .f32) (qR : Fin 1024 → ℝ) (σ : ℕ → ℝ) (ξ : ℕ → Fin 1024 → ℝ) (n : ℕ)
  (hQ : ∀ f, Q (ix2 (0 : Fin 1) f) = ((qR f : ℝ) : EReal))
  (hx : ∀ (j : Fin 512) (f : Fin 1024), ((x0 (ix3 (0 : Fin 1) j f)).toInt : ℝ) = ξ (n + j.val) f)
  (hσ : ∀ m, σ m = ∑ f : Fin 1024, qR f * ξ m f)

include hQ hx hσ

/-- The chunk's score of its position `j` is the real score of position `n + j`. -/
theorem score_eq (j : Fin 512) :
    k0_pay8 (F := Ideal) x0 Q (ix2 (0 : Fin 1) j) = ((σ (n + j.val) : ℝ) : EReal) := by
  rw [pay8_apply]
  simp only [hQ, pay7_apply, hx, ← EReal.coe_mul, sum_coe, hσ]

/-- The chunk's largest score is a real number. -/
theorem chunkMax_real : ∃ c : ℝ,
    ((Finset.univ : Finset (Fin 512)).fold max negInf fun j => k0_pay8 (F := Ideal) x0 Q (ix2 (0 : Fin 1) j)) = (c : EReal) := by
  rw [negInf_eq]
  simp only [score_eq x0 Q qR σ ξ n hQ hx hσ]
  exact fold_max_isReal (n := 511) (fun j => ((σ (n + j.val) : ℝ) : EReal)) (fun j => ⟨_, rfl⟩)

/-- A chunk after the first. -/
theorem step (M : ℝ) (hM : Mv (ix2 (0 : Fin 1) (0 : Fin 1)) = (M : EReal))
    (hL : Lv (ix2 (0 : Fin 1) (0 : Fin 1)) = ((∑ m ∈ Finset.range n, Real.exp (σ m - M) : ℝ) : EReal))
    (hA : ∀ e, Av (ix2 (0 : Fin 1) e) = ((∑ m ∈ Finset.range n, Real.exp (σ m - M) * ξ m e : ℝ) : EReal)) :
    ∃ M' : ℝ, k0_pay9 (F := Ideal) x0 Q Mv (ix2 (0 : Fin 1) (0 : Fin 1)) = (M' : EReal)
      ∧ k0_pay12 (F := Ideal) x0 Q Mv Lv (ix2 (0 : Fin 1) (0 : Fin 1))
          = ((∑ m ∈ Finset.range (n + 512), Real.exp (σ m - M') : ℝ) : EReal)
      ∧ ∀ e, k0_pay13 (F := Ideal) x0 Q Mv Av (ix2 (0 : Fin 1) e)
          = ((∑ m ∈ Finset.range (n + 512), Real.exp (σ m - M') * ξ m e : ℝ) : EReal) := by
  obtain ⟨c, hc⟩ := chunkMax_real x0 Q qR σ ξ n hQ hx hσ
  have h8 := score_eq x0 Q qR σ ξ n hQ hx hσ
  have h9 : k0_pay9 (F := Ideal) x0 Q Mv (ix2 (0 : Fin 1) (0 : Fin 1)) = max (M : EReal) (c : EReal) := by
    rw [pay9_apply, hM, hc]
  refine ⟨max M c, by rw [h9, max_coe], ?_, fun e => ?_⟩
  · rw [pay12_apply, pay10_apply, h9, hM, hL]
    simp only [pay11_apply, h8, h9]
    exact step_den σ n M c
  · rw [pay13_apply, pay10_apply, h9, hM, hA e]
    simp only [pay11_apply, h8, h9, pay7_apply, hx]
    exact step_num σ (fun m => ξ m e) n M c

/-- The first chunk: the running maximum enters at −∞, the denominator and the weighted sum at 0. -/
theorem first (hM : Mv (ix2 (0 : Fin 1) (0 : Fin 1)) = negInf) (hL : Lv (ix2 (0 : Fin 1) (0 : Fin 1)) = 0)
    (hA : ∀ e, Av (ix2 (0 : Fin 1) e) = 0) :
    ∃ M' : ℝ, k0_pay9 (F := Ideal) x0 Q Mv (ix2 (0 : Fin 1) (0 : Fin 1)) = (M' : EReal)
      ∧ k0_pay12 (F := Ideal) x0 Q Mv Lv (ix2 (0 : Fin 1) (0 : Fin 1))
          = ((∑ m ∈ Finset.range 512, Real.exp (σ (n + m) - M') : ℝ) : EReal)
      ∧ ∀ e, k0_pay13 (F := Ideal) x0 Q Mv Av (ix2 (0 : Fin 1) e)
          = ((∑ m ∈ Finset.range 512, Real.exp (σ (n + m) - M') * ξ (n + m) e : ℝ) : EReal) := by
  obtain ⟨c, hc⟩ := chunkMax_real x0 Q qR σ ξ n hQ hx hσ
  have h8 := score_eq x0 Q qR σ ξ n hQ hx hσ
  have h9 : k0_pay9 (F := Ideal) x0 Q Mv (ix2 (0 : Fin 1) (0 : Fin 1)) = max (⊥ : EReal) (c : EReal) := by
    rw [pay9_apply, hM, hc, negInf_eq]
  refine ⟨c, by rw [h9, max_eq_right bot_le], ?_, fun e => ?_⟩
  · rw [pay12_apply, hL]
    simp only [pay11_apply, h8, h9]
    exact first_den (fun m => σ (n + m)) _ c
  · rw [pay13_apply, hA e]
    simp only [pay11_apply, h8, h9, pay7_apply, hx]
    exact first_num (fun m => σ (n + m)) (fun m => ξ (n + m) e) _ c

end Cert.KernelIdeal.Chunk

end
-- ==== Proof.Inputs.lean ====
/-
  What the kernel's six input windows hold at a grid point, in terms of the five argument arrays.

  Point t of the 8 × 4 grid works on batch element t / 4 and on chunk t % 4 of its 2048 positions: the token window's
  block is rows 512·(t % 4) … 512·(t % 4) + 511 of that batch element; the second window's block is the batch
  element's last token row, converted to real numbers before the launch; the weight matrices and the two bias rows
  (each bias vector laid as one row before the launch) are whole.
-/
import proofs.«167905_j9560597200957_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Inputs

open Cert.KernelIdeal Cert.KernelIdeal.Gen

variable (m : (ℓ : Loc nD τ sig) → Buf (Elt Ideal) ℓ) (c : Dev nD)

/-- The token window's block index at point `t` is `(t / 4, t % 4, 0)`. -/
theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- The token window's block at point `t`: rows `512·(t % 4) + j` of batch element `t / 4`. -/
theorem blk0 (t : Fin cfg0.N) (j : Fin 512) (f : Fin 1024) (b : Fin 8) (r : Fin 2048) (hb : b.val = t.val / 4) (hr : r.val = 512 * (t.val % 4) + j.val) :
    (iblk m c 0 t : Vec Ideal S1x512x1024 .i32) (ix3 (0 : Fin 1) j f) = m ((c : Thread nD τ).loc main_arg0) (ix3 b r f) := by
  unfold iblk
  rw [View.read_apply]
  show V m c main_arg0 _ = _
  rw [V_main_arg0]
  congr 1
  funext a
  apply Fin.ext
  obtain ⟨h0, h1, h2⟩ := idx0 t
  match a with
  | ⟨0, _⟩ => show win0_0.index t 0 * 1 + 1 * 0 = b.val; rw [h0, hb]; omega
  | ⟨1, _⟩ => show win0_0.index t 1 * 512 + 1 * j.val = r.val; rw [h1, hr]; omega
  | ⟨2, _⟩ => show win0_0.index t 2 * 1024 + 1 * f.val = f.val; rw [h2]; omega

/-- The last position's token row of every batch element, converted, as the region finds it. -/
theorem V3_apply (b : Fin 8) (e : Fin 1024) :
    (V m c main_v3 : S8x1x1024.Idx → EReal) (ix3 b (0 : Fin 1) e)
      = (((m ((c : Thread nD τ).loc main_arg0) (ix3 b (2047 : Fin 2048) e)).toInt : ℝ) : EReal) := by
  have h : (V m c main_v3 : S8x1x1024.Idx → EReal)
      = broadcastInDim S8x1x1024 ![0, 2] bcast_S8x1024_S8x1x1024_0_2
          (sitofp (F := Ideal) .f32 (shapeCast S8x1024
            (extractStridedSlice S8x1x1024 ![0, 2047, 0] (m ((c : Thread nD τ).loc main_arg0)) slices_S8x2048x1024_S8x1x1024_0_2047_0)
            shapeCasts_S8x1x1024_S8x1024)) := by
    show StableHlo.after hostOps0 (fun b => m (c, b)) (Proc.devRef .tc main_v3) = _
    after_results
    rfl
  rw [h, broadcastInDim_apply _ bcast_S8x1024_S8x1x1024_0_2 _ (ix3 b (0 : Fin 1) e) (ix2 b e) (fun a => by
    match a with
    | ⟨0, _⟩ => show b.val = if (8 : Nat) = 1 then 0 else b.val; rw [if_neg (by decide)]
    | ⟨1, _⟩ => show e.val = if (1024 : Nat) = 1 then 0 else e.val; rw [if_neg (by decide)])]
  show FloatOps.sitofp .f32 (shapeCast S8x1024 _ shapeCasts_S8x1x1024_S8x1024 (ix2 b e)) = _
  rw [shapeCast_apply _ shapeCasts_S8x1x1024_S8x1024 (ix2 b e) (ix3 b (0 : Fin 1) e) (by
    rw [Shape.rowMajor_val_three, Shape.rowMajor_val_two]
    show (b.val * 1 + 0) * 1024 + e.val = b.val * 1024 + e.val
    omega),
    extractStridedSlice_apply _ _ slices_S8x2048x1024_S8x1x1024_0_2047_0 (ix3 b (0 : Fin 1) e) (ix3 b (2047 : Fin 2048) e) (fun a => by
    match a with
    | ⟨0, _⟩ => show b.val = 0 + b.val; omega
    | ⟨1, _⟩ => show (2047 : ℕ) = 2047 + 0; rfl
    | ⟨2, _⟩ => show e.val = 0 + e.val; omega)]
  rfl

/-- The query bias as the region finds it: the bias vector as one row. -/
theorem V4_apply (f : Fin 1024) :
    (V m c main_v4 : S1x1024.Idx → EReal) (ix2 (0 : Fin 1) f) = m ((c : Thread nD τ).loc main_arg2) (ix1 f) := by
  have h : (V m c main_v4 : S1x1024.Idx → EReal)
      = shapeCast S1x1024 (m ((c : Thread nD τ).loc main_arg2)) shapeCasts_S1024_S1x1024 := by
    show StableHlo.after hostOps0 (fun b => m (c, b)) (Proc.devRef .tc main_v4) = _
    after_results
    rfl
  rw [h, shapeCast_apply _ shapeCasts_S1024_S1x1024 (ix2 (0 : Fin 1) f) (ix1 f) (by
    rw [Shape.rowMajor_val_two, Shape.rowMajor_val_one]
    show f.val = 0 * 1024 + f.val
    omega)]

/-- The output bias as the region finds it: the bias vector as one row. -/
theorem V5_apply (v : Fin 512) :
    (V m c main_v5 : S1x512.Idx → EReal) (ix2 (0 : Fin 1) v) = m ((c : Thread nD τ).loc main_arg4) (ix1 v) := by
  have h : (V m c main_v5 : S1x512.Idx → EReal)
      = shapeCast S1x512 (m ((c : Thread nD τ).loc main_arg4)) shapeCasts_S512_S1x512 := by
    show StableHlo.after hostOps0 (fun b => m (c, b)) (Proc.devRef .tc main_v5) = _
    after_results
    rfl
  rw [h, shapeCast_apply _ shapeCasts_S512_S1x512 (ix2 (0 : Fin 1) v) (ix1 v) (by
    rw [Shape.rowMajor_val_two, Shape.rowMajor_val_one]
    show v.val = 0 * 512 + v.val
    omega)]

theorem idx1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- Window 1's block at point `t`: the converted last token row of batch element `t / 4`. -/
theorem blk1 (t : Fin cfg0.N) (e : Fin 1024) (b : Fin 8) (hb : b.val = t.val / 4) :
    (iblk m c 1 t : Vec Ideal S1x1x1024 .f32) (ix3 (0 : Fin 1) (0 : Fin 1) e)
      = (((m ((c : Thread nD τ).loc main_arg0) (ix3 b (2047 : Fin 2048) e)).toInt : ℝ) : EReal) := by
  rw [← V3_apply m c b e]
  unfold iblk
  rw [View.read_apply]
  show V m c main_v3 _ = V m c main_v3 _
  congr 1
  funext a
  apply Fin.ext
  obtain ⟨h0, h1, h2⟩ := idx1 t
  match a with
  | ⟨0, _⟩ => show win0_1.index t 0 * 1 + 1 * 0 = b.val; rw [h0, hb]; omega
  | ⟨1, _⟩ => show win0_1.index t 1 * 1 + 1 * 0 = 0; rw [h1]
  | ⟨2, _⟩ => show win0_1.index t 2 * 1024 + 1 * e.val = e.val; rw [h2]; omega

theorem idx2345 : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0))

/-- Window 2's block: the whole query weight matrix. -/
theorem blk2 (t : Fin cfg0.N) (f e : Fin 1024) :
    (iblk m c 2 t : Vec Ideal S1024x1024 .f32) (ix2 f e) = m ((c : Thread nD τ).loc main_arg1) (ix2 f e) := by
  unfold iblk
  rw [View.read_apply]
  show V m c main_arg1 _ = _
  rw [V_main_arg1]
  congr 1
  funext a
  apply Fin.ext
  obtain ⟨⟨h0, h1⟩, -⟩ := idx2345 t
  match a with
  | ⟨0, _⟩ => show win0_2.index t 0 * 1024 + 1 * f.val = f.val; rw [h0]; omega
  | ⟨1, _⟩ => show win0_2.index t 1 * 1024 + 1 * e.val = e.val; rw [h1]; omega

/-- Window 3's block: the query bias row. -/
theorem blk3 (t : Fin cfg0.N) (f : Fin 1024) :
    (iblk m c 3 t : Vec Ideal S1x1024 .f32) (ix2 (0 : Fin 1) f) = m ((c : Thread nD τ).loc main_arg2) (ix1 f) := by
  rw [← V4_apply m c f]
  unfold iblk
  rw [View.read_apply]
  show V m c main_v4 _ = V m c main_v4 _
  congr 1
  funext a
  apply Fin.ext
  obtain ⟨-, ⟨h0, h1⟩, -⟩ := idx2345 t
  match a with
  | ⟨0, _⟩ => show win0_3.index t 0 * 1 + 1 * 0 = 0; rw [h0]
  | ⟨1, _⟩ => show win0_3.index t 1 * 1024 + 1 * f.val = f.val; rw [h1]; omega

/-- Window 4's block: the whole output weight matrix. -/
theorem blk4 (t : Fin cfg0.N) (v : Fin 512) (e : Fin 1024) :
    (iblk m c 4 t : Vec Ideal S512x1024 .f32) (ix2 v e) = m ((c : Thread nD τ).loc main_arg3) (ix2 v e) := by
  unfold iblk
  rw [View.read_apply]
  show V m c main_arg3 _ = _
  rw [V_main_arg3]
  congr 1
  funext a
  apply Fin.ext
  obtain ⟨-, -, ⟨h0, h1⟩, -⟩ := idx2345 t
  match a with
  | ⟨0, _⟩ => show win0_4.index t 0 * 512 + 1 * v.val = v.val; rw [h0]; omega
  | ⟨1, _⟩ => show win0_4.index t 1 * 1024 + 1 * e.val = e.val; rw [h1]; omega

/-- Window 5's block: the output bias row. -/
theorem blk5 (t : Fin cfg0.N) (v : Fin 512) :
    (iblk m c 5 t : Vec Ideal S1x512 .f32) (ix2 (0 : Fin 1) v) = m ((c : Thread nD τ).loc main_arg4) (ix1 v) := by
  rw [← V5_apply m c v]
  unfold iblk
  rw [View.read_apply]
  show V m c main_v5 _ = V m c main_v5 _
  congr 1
  funext a
  apply Fin.ext
  obtain ⟨-, -, -, ⟨h0, h1⟩⟩ := idx2345 t
  match a with
  | ⟨0, _⟩ => show win0_5.index t 0 * 1 + 1 * 0 = 0; rw [h0]
  | ⟨1, _⟩ => show win0_5.index t 1 * 512 + 1 * v.val = v.val; rw [h1]; omega

end Cert.KernelIdeal.Inputs
end
-- ==== Proof.Invariant.lean ====
/-
  The carried values after every grid point.

  By induction along the grid: after point t (batch element b = t / 4, chunk k = t % 4) the first scratch buffer
  holds the query row of b; the second a real shift M; the third Σ_{r < 512(k+1)} exp (σ_r − M) and the fourth
  Σ_{r < 512(k+1)} exp (σ_r − M) · ξ_{r,e}, where σ_r is the real score of position r of b and ξ_{r,e} its token as a
  real number. The weights of the query projection are real numbers (the hypothesis), so the scores are real and the
  recurrence of the online softmax applies. After the last chunk the output block is the projection of the quotient,
  which is the reference's softmax-weighted row.
-/
import proofs.«167905_j9560597200957_2_alg».proof.Proof.Pieces
import proofs.«167905_j9560597200957_2_alg».proof.Proof.Chunk
import proofs.«167905_j9560597200957_2_alg».proof.Proof.Inputs
import proofs.«167905_j9560597200957_2_alg».proof.Proof.Spec

set_option maxRecDepth 16384

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Pieces Cert.KernelIdeal.Payloads Cert.KernelIdeal.Inputs
open Cert.LibRealArith Cert.OnlineSoftmax

variable (m : (ℓ : Loc nD τ sig) → Buf (Elt Ideal) ℓ) (c : Dev nD)

/-- The five argument arrays. -/
abbrev tok : S8x2048x1024.Idx → BitVec 32 := m ((c : Thread nD τ).loc main_arg0)
abbrev waw : S1024x1024.Idx → EReal := m ((c : Thread nD τ).loc main_arg1)
abbrev wab : S1024.Idx → EReal := m ((c : Thread nD τ).loc main_arg2)
abbrev wbw : S512x1024.Idx → EReal := m ((c : Thread nD τ).loc main_arg3)
abbrev wbb : S512.Idx → EReal := m ((c : Thread nD τ).loc main_arg4)

/-- Token `(b, r, e)` as a real number (0 beyond the 2048 positions). -/
def ξ (b : Fin 8) (r : ℕ) (e : Fin 1024) : ℝ :=
  if h : r < 2048 then ((tok m c (ix3 b ⟨r, h⟩ e)).toInt : ℝ) else 0

/-- The query row of batch element `b` as real numbers. -/
def qR (b : Fin 8) (f : Fin 1024) : ℝ := (Spec.q (tok m c) (waw m c) (wab m c) b f).toReal

/-- The real score of position `r`. -/
def σ (b : Fin 8) (r : ℕ) : ℝ := ∑ f : Fin 1024, qR m c b f * ξ m c b r f

theorem xi_eq (b : Fin 8) (r : Fin 2048) (k : ℕ) (hk : r.val = k) (e : Fin 1024) :
    ((tok m c (ix3 b r e)).toInt : ℝ) = ξ m c b k e := by
  subst hk; unfold ξ; rw [dif_pos r.isLt]

theorem x_eq (b : Fin 8) (r : Fin 2048) (e : Fin 1024) :
    Spec.x (tok m c) b r e = ((ξ m c b r.val e : ℝ) : EReal) := by
  unfold Spec.x; rw [xi_eq m c b r r.val rfl e]

theorem coe_toReal_of_isReal {x : EReal} (h : IsReal x) : ((x.toReal : ℝ) : EReal) = x := by
  obtain ⟨r, rfl⟩ := h; rfl

section Real
variable (hw : ∀ i, IsReal (waw m c i)) (hb : ∀ i, IsReal (wab m c i))
include hw hb

theorem q_real (b : Fin 8) (f : Fin 1024) :
    Spec.q (tok m c) (waw m c) (wab m c) b f = ((qR m c b f : ℝ) : EReal) := by
  refine (coe_toReal_of_isReal ?_).symm
  unfold Spec.q
  refine IsReal.add (IsReal.sum _ fun e _ => IsReal.mul ?_ (hw _)) (hb _)
  rw [x_eq]; exact ⟨_, rfl⟩

theorem s_eq (b : Fin 8) (r : Fin 2048) :
    Spec.s (tok m c) (waw m c) (wab m c) b r = ((σ m c b r.val : ℝ) : EReal) := by
  unfold Spec.s σ
  simp only [q_real m c hw hb, x_eq, ← EReal.coe_mul, sum_coe]

end Real

/-- What the point before left. -/
abbrev prev (t : Fin cfg0.N) := outsAt0 (F := Ideal) m c (t.val - 1) (Nat.lt_of_le_of_lt (Nat.sub_le _ _) t.isLt)

set_option maxHeartbeats 2000000 in
/-- The carried values after a first chunk. -/
theorem outs_A (t : Fin cfg0.N) (h0 : t.val % 4 = 0) (h1 : ¬t.val % 4 = 3) :
    (outsAt0 (F := Ideal) m c t.val t.isLt).2
      = ((k0_pay3 (F := Ideal) (iblk m c 1 t) (iblk m c 2 t) (iblk m c 3 t)), k0_pay1 (k0_pay9 (F := Ideal) (iblk m c 0 t) (k0_pay3 (F := Ideal) (iblk m c 1 t) (iblk m c 2 t) (iblk m c 3 t)) (k0_pay4 (F := Ideal))),
          k0_pay12 (F := Ideal) (iblk m c 0 t) (k0_pay3 (F := Ideal) (iblk m c 1 t) (iblk m c 2 t) (iblk m c 3 t)) (k0_pay4 (F := Ideal)) (k0_pay5 (F := Ideal)),
          k0_pay13 (F := Ideal) (iblk m c 0 t) (k0_pay3 (F := Ideal) (iblk m c 1 t) (iblk m c 2 t) (iblk m c 3 t)) (k0_pay4 (F := Ideal)) (k0_pay6 (F := Ideal))) := by
  rw [outsAt0_A m c t h0 h1, sA0, sA1, sA2, sA3]

set_option maxHeartbeats 2000000 in
/-- The carried values after a middle chunk. -/
theorem outs_B (t : Fin cfg0.N) (h0 : ¬t.val % 4 = 0) (h1 : ¬t.val % 4 = 3) :
    (outsAt0 (F := Ideal) m c t.val t.isLt).2
      = ((prev m c t).2.1, k0_pay1 (k0_pay9 (F := Ideal) (iblk m c 0 t) (prev m c t).2.1 (prev m c t).2.2.1),
          k0_pay12 (F := Ideal) (iblk m c 0 t) (prev m c t).2.1 (prev m c t).2.2.1 (prev m c t).2.2.2.1,
          k0_pay13 (F := Ideal) (iblk m c 0 t) (prev m c t).2.1 (prev m c t).2.2.1 (prev m c t).2.2.2.2) := by
  rw [outsAt0_B m c t h0 h1, sB1, sB2, sB3]
  rfl

set_option maxHeartbeats 2000000 in
/-- The carried values and the output block after a last chunk. -/
theorem outs_C (t : Fin cfg0.N) (h0 : ¬t.val % 4 = 0) (h1 : t.val % 4 = 3) :
    outsAt0 (F := Ideal) m c t.val t.isLt
      = (k0_pay2 (F := Ideal) (k0_pay13 (F := Ideal) (iblk m c 0 t) (prev m c t).2.1 (prev m c t).2.2.1 (prev m c t).2.2.2.2)
            (k0_pay12 (F := Ideal) (iblk m c 0 t) (prev m c t).2.1 (prev m c t).2.2.1 (prev m c t).2.2.2.1) (iblk m c 4 t) (iblk m c 5 t),
          (prev m c t).2.1, k0_pay1 (k0_pay9 (F := Ideal) (iblk m c 0 t) (prev m c t).2.1 (prev m c t).2.2.1),
          k0_pay12 (F := Ideal) (iblk m c 0 t) (prev m c t).2.1 (prev m c t).2.2.1 (prev m c t).2.2.2.1,
          k0_pay13 (F := Ideal) (iblk m c 0 t) (prev m c t).2.1 (prev m c t).2.2.1 (prev m c t).2.2.2.2) := by
  rw [outsAt0_C m c t h0 h1, oC6, sC1, sC2, sC3]
  rfl

/-- The state of the recurrence after point `n`, for its batch element `b = n / 4` and chunk `n % 4`. -/
def Inv (n : ℕ) (hn : n < cfg0.N) : Prop :=
  ∀ b : Fin 8, b.val = n / 4 →
    (∀ f : Fin 1024, (outsAt0 (F := Ideal) m c n hn).2.1 (ix2 (0 : Fin 1) f) = Spec.q (tok m c) (waw m c) (wab m c) b f) ∧
    ∃ M : ℝ, (outsAt0 (F := Ideal) m c n hn).2.2.1 (ix2 (0 : Fin 1) (0 : Fin 1)) = (M : EReal)
      ∧ (outsAt0 (F := Ideal) m c n hn).2.2.2.1 (ix2 (0 : Fin 1) (0 : Fin 1))
          = ((∑ r ∈ Finset.range (512 * (n % 4) + 512), Real.exp (σ m c b r - M) : ℝ) : EReal)
      ∧ ∀ e : Fin 1024, (outsAt0 (F := Ideal) m c n hn).2.2.2.2 (ix2 (0 : Fin 1) e)
          = ((∑ r ∈ Finset.range (512 * (n % 4) + 512), Real.exp (σ m c b r - M) * ξ m c b r e : ℝ) : EReal)

/-- The token block of point `t`, entry by entry, as the real tokens of rows `512·(t % 4) + j`. -/
theorem hx_blk (t : Fin cfg0.N) (b : Fin 8) (hb' : b.val = t.val / 4) (j : Fin 512) (f : Fin 1024) :
    (((iblk m c 0 t : Vec Ideal S1x512x1024 .i32) (ix3 (0 : Fin 1) j f)).toInt : ℝ)
      = ξ m c b (512 * (t.val % 4) + j.val) f := by
  have hr : 512 * (t.val % 4) + j.val < 2048 := by have := j.isLt; omega
  rw [blk0 m c t j f b ⟨512 * (t.val % 4) + j.val, hr⟩ hb' rfl]
  exact xi_eq m c b _ _ rfl f

/-- The query row a first chunk computes is the specification's. -/
theorem q_first (t : Fin cfg0.N) (b : Fin 8) (hb' : b.val = t.val / 4) (f : Fin 1024) :
    k0_pay3 (F := Ideal) (iblk m c 1 t) (iblk m c 2 t) (iblk m c 3 t) (ix2 (0 : Fin 1) f)
      = Spec.q (tok m c) (waw m c) (wab m c) b f := by
  rw [pay3_apply]
  simp only [fun e => blk1 m c t e b hb', blk2, blk3]
  rfl

section Real
variable (hw : ∀ i, IsReal (waw m c i)) (hb : ∀ i, IsReal (wab m c i))
include hw hb

/-- A first chunk establishes the recurrence. -/
theorem inv_A (t : Fin cfg0.N) (h0 : t.val % 4 = 0) : Inv m c t.val t.isLt := by
  intro b hb'
  have h1 : ¬t.val % 4 = 3 := by omega
  rw [outs_A m c t h0 h1]
  dsimp only
  have hq := q_first m c t b hb'
  refine ⟨hq, ?_⟩
  obtain ⟨M', h9, h12, h13⟩ := Chunk.first (iblk m c 0 t) (k0_pay3 (F := Ideal) (iblk m c 1 t) (iblk m c 2 t) (iblk m c 3 t)) (k0_pay4 (F := Ideal)) (k0_pay5 (F := Ideal))
    (k0_pay6 (F := Ideal)) (qR m c b) (σ m c b) (ξ m c b) (512 * (t.val % 4))
    (fun f => (hq f).trans (q_real m c hw hb b f)) (hx_blk m c t b hb') (fun r => rfl)
    (pay4_apply _) (pay5_apply _) (fun e => pay6_apply _)
  refine ⟨M', by rw [pay1_eq]; exact h9, ?_, fun e => ?_⟩
  · rw [h12, h0]; simp only [Nat.mul_zero, Nat.zero_add]
  · rw [h13 e, h0]; simp only [Nat.mul_zero, Nat.zero_add]

/-- A later chunk advances it. -/
theorem inv_step (t : Fin cfg0.N) (h0 : ¬t.val % 4 = 0)
    (ih : Inv m c (t.val - 1) (Nat.lt_of_le_of_lt (Nat.sub_le _ _) t.isLt))
    (hs : (outsAt0 (F := Ideal) m c t.val t.isLt).2
      = ((prev m c t).2.1, k0_pay1 (k0_pay9 (F := Ideal) (iblk m c 0 t) (prev m c t).2.1 (prev m c t).2.2.1),
          k0_pay12 (F := Ideal) (iblk m c 0 t) (prev m c t).2.1 (prev m c t).2.2.1 (prev m c t).2.2.2.1,
          k0_pay13 (F := Ideal) (iblk m c 0 t) (prev m c t).2.1 (prev m c t).2.2.1 (prev m c t).2.2.2.2)) :
    Inv m c t.val t.isLt := by
  intro b hb'
  obtain ⟨hq, M, hM, hL, hA⟩ := ih b (by omega)
  rw [hs]
  dsimp only
  refine ⟨hq, ?_⟩
  have e1 : 512 * ((t.val - 1) % 4) + 512 = 512 * (t.val % 4) := by omega
  rw [e1] at hL hA
  obtain ⟨M', h9, h12, h13⟩ := Chunk.step (iblk m c 0 t) (prev m c t).2.1 (prev m c t).2.2.1 (prev m c t).2.2.2.1
    (prev m c t).2.2.2.2 (qR m c b) (σ m c b) (ξ m c b) (512 * (t.val % 4))
    (fun f => (hq f).trans (q_real m c hw hb b f)) (hx_blk m c t b hb') (fun r => rfl) M hM hL hA
  exact ⟨M', by rw [pay1_eq]; exact h9, h12, h13⟩

/-- The recurrence holds after every grid point. -/
theorem inv : ∀ (n : ℕ) (hn : n < cfg0.N), Inv m c n hn := by
  intro n
  induction n with
  | zero => intro hn; exact inv_A m c hw hb ⟨0, hn⟩ rfl
  | succ k ih =>
    intro hn
    by_cases h0 : (k + 1) % 4 = 0
    · exact inv_A m c hw hb ⟨k + 1, hn⟩ h0
    · have ihk := ih (Nat.lt_of_succ_lt hn)
      by_cases h1 : (k + 1) % 4 = 3
      · exact inv_step m c hw hb ⟨k + 1, hn⟩ h0 ihk (congrArg Prod.snd (outs_C m c ⟨k + 1, hn⟩ h0 h1))
      · exact inv_step m c hw hb ⟨k + 1, hn⟩ h0 ihk (outs_B m c ⟨k + 1, hn⟩ h0 h1)

/-- The reference's shift is a real number. -/
theorem refShift_real (b : Fin 8) : IsReal (Spec.refShift (tok m c) (waw m c) (wab m c) b) := by
  unfold Spec.refShift
  have hn : Spec.negInf = (⊥ : EReal) := by simp [Spec.negInf, Ideal.ofBits, Ideal.ieee]
  rw [hn, max_eq_right bot_le]
  have hs : Spec.s (tok m c) (waw m c) (wab m c) b = fun r : Fin 2048 => ((σ m c b r.val : ℝ) : EReal) :=
    funext (s_eq m c hw hb b)
  rw [hs]
  exact fold_max_isReal (n := 2047) _ (fun j => ⟨_, rfl⟩)

/-- After a last chunk the output block is the reference's result for its batch element. -/
theorem out_eq (t : Fin cfg0.N) (b : Fin 8) (h3 : t.val % 4 = 3) (hb' : b.val = t.val / 4) (v : Fin 512) :
    (outsAt0 (F := Ideal) m c t.val t.isLt).1 (ix3 (0 : Fin 1) (0 : Fin 1) v)
      = Spec.refOut (tok m c) (waw m c) (wab m c) (wbw m c) (wbb m c) b v := by
  have h0 : ¬t.val % 4 = 0 := by omega
  obtain ⟨hq, M, hM, hL, hA⟩ := inv m c hw hb t.val t.isLt b hb'
  rw [outs_C m c t h0 h3] at hL hA ⊢
  dsimp only at hL hA ⊢
  have e2 : 512 * (t.val % 4) + 512 = 2048 := by omega
  rw [e2] at hL hA
  obtain ⟨mr, hmr⟩ := refShift_real m c hw hb b
  rw [pay2_apply]
  simp only [hA, hL, blk4, blk5]
  unfold Spec.refOut Spec.proj
  refine congrArg (· + _) (Finset.sum_congr rfl fun e _ => congrArg (· * _) ?_)
  unfold Spec.attn
  rw [hmr]
  simp only [s_eq m c hw hb, x_eq, Ideal.ofBits_zero_f32]
  exact attn_eq (σ m c b) (fun r => ξ m c b r e) M mr

end Real

end Cert.KernelIdeal.Invariant

end
-- ==== Proof.lean ====
/-
  The kernel and the reference compute the same array over the extended reals.

  The kernel computes, for each batch element, the query of the last position only. It streams the 2048 positions in
  four chunks of 512, keeping a running maximum of the scores, a running denominator and a running weighted sum of
  the token rows — the online form of the softmax — and projects the normalised row through the output weights.

  The reference computes all 2048 queries, the full matrix of scores, the softmax of each of its rows, the weighted
  rows and their projection, and keeps the last row.

  Over the extended reals, when the query weights and bias are real numbers, the last row of the reference is the
  kernel's value: a softmax-weighted sum does not depend on the shift subtracted before exponentiating, so the running
  maximum of the chunks may replace the maximum of all scores, each change of the running maximum being undone by
  rescaling the denominator and the weighted sum by the exponential of the difference. The finiteness of the query
  weights and bias is what makes the scores real numbers, for which these rescaling identities hold. The output
  weights and bias enter both sides in the same way and need no finiteness.

  The parts: the reference read index by index is the specification's output; the precondition gives real query
  weights and bias; the kernel's block at each writing-back point is the specification's row, so its returned array is
  the specification's output; both runs leave the arguments unchanged.
-/
import proofs.«167905_j9560597200957_2_alg».proof.Defs
import proofs.«167905_j9560597200957_2_alg».proof.Proof.Gen.Kernel
import proofs.«167905_j9560597200957_2_alg».proof.Proof.Gen.Kernel.Frame
import proofs.«167905_j9560597200957_2_alg».proof.Proof.Gen.KernelIdeal
import proofs.«167905_j9560597200957_2_alg».proof.Proof.Gen.KernelIdeal.Frame
import proofs.«167905_j9560597200957_2_alg».proof.Proof.Gen.ReferenceIdeal
import proofs.«167905_j9560597200957_2_alg».proof.Proof.Gen.ReferenceIdeal.Read
import proofs.«167905_j9560597200957_2_alg».proof.Proof.Gen.Pre_finite_inputs
import proofs.«167905_j9560597200957_2_alg».proof.Proof.RefSide
import proofs.«167905_j9560597200957_2_alg».proof.Proof.Finite
import proofs.«167905_j9560597200957_2_alg».proof.Proof.KernelRun
import proofs.«167905_j9560597200957_2_alg».proof.Proof.Invariant
import Idealize.ShloMosaic.Adequacy
import Idealize.ShloMosaic.Init

noncomputable section

namespace Cert.Proof

open Idealize.ShloMosaic Idealize.SL.Sem

/-- The kernel over binary floats runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel over the extended reals is the kernel over binary floats with no operation changed. -/
theorem preserves : Cert.preserves_Kernel_KernelIdeal := trivial

/-- Over the extended reals, from memories that agree on the arguments and whose float arguments are finite, the
    kernel's returned array and the reference's are both the specification's output of the arguments. -/
theorem algebraic : Cert.algebraic_KernelIdeal_ReferenceIdeal := by
  intro m ρ m' ρ' hpre hagree
  have hreal : ∀ c : Dev Cert.KernelIdeal.nD,
      (∀ i, Cert.LibRealArith.IsReal
        (m ((c.tc : Thread Cert.KernelIdeal.nD Cert.KernelIdeal.τ).loc Cert.KernelIdeal.main_arg1) i))
      ∧ (∀ i, Cert.LibRealArith.IsReal
        (m ((c.tc : Thread Cert.KernelIdeal.nD Cert.KernelIdeal.τ).loc Cert.KernelIdeal.main_arg2) i)) :=
    fun c => Cert.Finite.reals_of_pre _ _ _ _ _ (hpre c)
  refine ⟨fun c i => Cert.Spec.refOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (i 0) (i 1),
    Cert.KernelIdeal.KernelRun.run m ρ
      (fun c b v => Cert.Spec.refOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) b v)
      (fun c t b h3 hb' v => Cert.KernelIdeal.Invariant.out_eq m c (hreal c).1 (hreal c).2 t b h3 hb' v), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v23_eq]
  funext i
  exact Cert.RefSide.ref_eq _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
